-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S200000 : Shape := ⟨1, ![200000]⟩
abbrev S128x16 : Shape := ⟨2, ![128, 16]⟩
abbrev S16 : Shape := ⟨1, ![16]⟩
abbrev S16x16 : Shape := ⟨2, ![16, 16]⟩
abbrev S16x100 : Shape := ⟨2, ![16, 100]⟩
abbrev S100 : Shape := ⟨1, ![100]⟩
abbrev S100x27 : Shape := ⟨2, ![100, 27]⟩
abbrev S27 : Shape := ⟨1, ![27]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x100 : S_.BroadcastsInDim S16x100 (![] : Fin 0 → Fin S16x100.rank)
  reducesTo_S16x100_S_d0_1 : S16x100.ReducesTo [0, 1] S_
  bcast_S_S100 : S_.BroadcastsInDim S100 (![] : Fin 0 → Fin S100.rank)
  reducesTo_S100_S_d0 : S100.ReducesTo [0] S_
  bcast_S_S100x27 : S_.BroadcastsInDim S100x27 (![] : Fin 0 → Fin S100x27.rank)
  reducesTo_S100x27_S_d0_1 : S100x27.ReducesTo [0, 1] S_
  bcast_S_S27 : S_.BroadcastsInDim S27 (![] : Fin 0 → Fin S27.rank)
  reducesTo_S27_S_d0 : S27.ReducesTo [0] S_

variable [Facts]

def fn_part2 {F : FTy → Type} [FloatOps F] (main_arg9 : FVec F S100x27 .f32) (main_arg10 : FVec F S27 .f32) (main_v33 : IVec S_ 1) : IVec S_ 1 :=
  let main_v34 : FVec F S100x27 .f32 := Host.absf main_arg9
  let main_cst_12 : FVec F S_ .f32 := constant S_ .f32 0x7F800000#32
  let main_v35 : FVec F S100x27 .f32 := broadcastInDim S100x27 ![] bcast_S_S100x27 main_cst_12
  let main_v36 : IVec S100x27 1 := cmpf .olt main_v34 main_v35
  let main_c_13 : IVec S_ 1 := constantI S_ 1 1#1
  let main_v37 : IVec S_ 1 := (fun x v => Host.reduce IntOp.andi x v reducesTo_S100x27_S_d0_1 h_S_) main_v36 main_c_13
  let main_v38 : IVec S_ 1 := andi main_v33 main_v37
  let main_v39 : FVec F S27 .f32 := Host.absf main_arg10
  let main_cst_14 : FVec F S_ .f32 := constant S_ .f32 0x7F800000#32
  let main_v40 : FVec F S27 .f32 := broadcastInDim S27 ![] bcast_S_S27 main_cst_14
  let main_v41 : IVec S27 1 := cmpf .olt main_v39 main_v40
  let main_c_15 : IVec S_ 1 := constantI S_ 1 1#1
  let main_v42 : IVec S_ 1 := (fun x v => Host.reduce IntOp.andi x v reducesTo_S27_S_d0 h_S_) main_v41 main_c_15
  let main_v43 : IVec S_ 1 := andi main_v38 main_v42
  main_v43

def fn_part1 {F : FTy → Type} [FloatOps F] (main_arg6 : FVec F S16 .f32) (main_arg7 : FVec F S16x100 .f32) (main_arg8 : FVec F S100 .f32) (main_arg9 : FVec F S100x27 .f32) (main_arg10 : FVec F S27 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x100 .f32 := Host.absf main_arg7
  let main_cst_8 : FVec F S_ .f32 := constant S_ .f32 0x7F800000#32
  let main_v25 : FVec F S16x100 .f32 := broadcastInDim S16x100 ![] bcast_S_S16x100 main_cst_8
  let main_v26 : IVec S16x100 1 := cmpf .olt main_v24 main_v25
  let main_c_9 : IVec S_ 1 := constantI S_ 1 1#1
  let main_v27 : IVec S_ 1 := (fun x v => Host.reduce IntOp.andi x v reducesTo_S16x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_v33

def fn {F : FTy → Type} [FloatOps F] (main_arg0 : FVec F S200000x128 .f32) (main_arg1 : IVec S2x6400000 32) (main_arg2 : IVec S200000 32) (main_arg3 : FVec F S128x16 .f32) (main_arg4 : FVec F S16 .f32) (main_arg5 : FVec F S16x16 .f32) (main_arg6 : FVec F S16 .f32) (main_arg7 : FVec F S16x100 .f32) (main_arg8 : FVec F S100 .f32) (main_arg9 : FVec F S100x27 .f32) (main_arg10 : FVec F S27 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_arg9 main_arg10 main_v13 main_v16
-- ==== Kernel.lean ====
abbrev S200000x128 : Shape := ⟨2, ![200000, 128]⟩
abbrev S2x6400000 : Shape := ⟨2, ![2, 6400000]⟩
abbrev S200000 : Shape := ⟨1, ![200000]⟩
abbrev S128x16 : Shape := ⟨2, ![128, 16]⟩
abbrev S16 : Shape := ⟨1, ![16]⟩
abbrev S16x16 : Shape := ⟨2, ![16, 16]⟩
abbrev S16x100 : Shape := ⟨2, ![16, 100]⟩
abbrev S100 : Shape := ⟨1, ![100]⟩
abbrev S100x27 : Shape := ⟨2, ![100, 27]⟩
abbrev S27 : Shape := ⟨1, ![27]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S10000x128 : Shape := ⟨2, ![10000, 128]⟩
abbrev S10000x16 : Shape := ⟨2, ![10000, 16]⟩
abbrev S6600000x16 : Shape := ⟨2, ![6600000, 16]⟩
abbrev S5000x16 : Shape := ⟨2, ![5000, 16]⟩
abbrev S1x16 : Shape := ⟨2, ![1, 16]⟩
abbrev S4096x16 : Shape := ⟨2, ![4096, 16]⟩
abbrev S200000x1 : Shape := ⟨2, ![200000, 1]⟩
abbrev S4096x27 : Shape := ⟨2, ![4096, 27]⟩
abbrev S4096x100 : Shape := ⟨2, ![4096, 100]⟩
abbrev S1x100 : Shape := ⟨2, ![1, 100]⟩
abbrev S1x27 : Shape := ⟨2, ![1, 27]⟩

abbrev nBuf : Space → Nat
  | .hbm => 85
  | .vmem => 26
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S200000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x100, .f32⟩
  | .hbm, ⟨8, _⟩ => ⟨S100, .f32⟩
  | .hbm, ⟨9, _⟩ => ⟨S100x27, .f32⟩
  | .hbm, ⟨10, _⟩ => ⟨S27, .f32⟩
  | .hbm, ⟨11, _⟩ => ⟨S1x6400000, .i32⟩
  | .hbm, ⟨12, _⟩ => ⟨S6400000, .i32⟩
  | .hbm, ⟨13, _⟩ => ⟨S1x6400000, .i32⟩
  | .hbm, ⟨14, _⟩ => ⟨S6400000, .i32⟩
  | .hbm, ⟨15, _⟩ => ⟨S200000, .i32⟩
  | .hbm, ⟨16, _⟩ => ⟨S6600000, .i32⟩
  | .hbm, ⟨17, _⟩ => ⟨S6600000, .i32⟩
  | .hbm, ⟨18, _⟩ => ⟨S_, .f32⟩
  | .hbm, ⟨19, _⟩ => ⟨S6600000, .f32⟩
  | .hbm, ⟨20, _⟩ => ⟨S_, .f32⟩
  | .hbm, ⟨21, _⟩ => ⟨S200000, .f32⟩
  | .hbm, ⟨22, _⟩ => ⟨S6600000x1, .i32⟩
  | .hbm, ⟨23, _⟩ => ⟨S200000, .f32⟩
  | .hbm, ⟨24, _⟩ => ⟨S200000, .f32⟩
  | .hbm, ⟨25, _⟩ => ⟨S_, .i32⟩
  | .hbm, ⟨26, _⟩ => ⟨S6600000, .i32⟩
  | .hbm, ⟨27, _⟩ => ⟨S6600000, .i1⟩
  | .hbm, ⟨28, _⟩ => ⟨S_, .i32⟩
  | .hbm, ⟨29, _⟩ => ⟨S6600000, .i32⟩
  | .hbm, ⟨30, _⟩ => ⟨S6600000, .i32⟩
  | .hbm, ⟨31, _⟩ => ⟨S6600000, .i32⟩
  | .hbm, ⟨32, _⟩ => ⟨S6600000x1, .i32⟩
  | .hbm, ⟨33, _⟩ => ⟨S6600000, .f32⟩
  | .hbm, ⟨34, _⟩ => ⟨S_, .i32⟩
  | .hbm, ⟨35, _⟩ => ⟨S6600000, .i32⟩
  | .hbm, ⟨36, _⟩ => ⟨S6600000, .i1⟩
  | .hbm, ⟨37, _⟩ => ⟨S_, .i32⟩
  | .hbm, ⟨38, _⟩ => ⟨S6600000, .i32⟩
  | .hbm, ⟨39, _⟩ => ⟨S6600000, .i32⟩
  | .hbm, ⟨40, _⟩ => ⟨S6600000, .i32⟩
  | .hbm, ⟨41, _⟩ => ⟨S6600000x1, .i32⟩
  | .hbm, ⟨42, _⟩ => ⟨S6600000, .f32⟩
  | .hbm, ⟨43, _⟩ => ⟨S6600000, .f32⟩
  | .hbm, ⟨44, _⟩ => ⟨S200000x16, .f32⟩
  | .hbm, ⟨45, _⟩ => ⟨S_, .i32⟩
  | .hbm, ⟨46, _⟩ => ⟨S6600000, .i32⟩
  | .hbm, ⟨47, _⟩ => ⟨S6600000, .i1⟩
  | .hbm, ⟨48, _⟩ => ⟨S_, .i32⟩
  | .hbm, ⟨49, _⟩ => ⟨S6600000, .i32⟩
  | .hbm, ⟨50, _⟩ => ⟨S6600000, .i32⟩
  | .hbm, ⟨51, _⟩ => ⟨S6600000, .i32⟩
  | .hbm, ⟨52, _⟩ => ⟨S6600000x1, .i32⟩
  | .hbm, ⟨53, _⟩ => ⟨S6600000x16, .f32⟩
  | .hbm, ⟨54, _⟩ => ⟨S6600000x1, .f32⟩
  | .hbm, ⟨55, _⟩ => ⟨S6600000x16, .f32⟩
  | .hbm, ⟨56, _⟩ => ⟨S6600000x16, .f32⟩
  | .hbm, ⟨57, _⟩ => ⟨S_, .f32⟩
  | .hbm, ⟨58, _⟩ => ⟨S200000x16, .f32⟩
  | .hbm, ⟨59, _⟩ => ⟨S6600000x1, .i32⟩
  | .hbm, ⟨60, _⟩ => ⟨S200000x16, .f32⟩
  | .hbm, ⟨61, _⟩ => ⟨S200000x16, .f32⟩
  | .hbm, ⟨62, _⟩ => ⟨S200000x16, .f32⟩
  | .hbm, ⟨63, _⟩ => ⟨S_, .i32⟩
  | .hbm, ⟨64, _⟩ => ⟨S6600000, .i32⟩
  | .hbm, ⟨65, _⟩ => ⟨S6600000, .i1⟩
  | .hbm, ⟨66, _⟩ => ⟨S_, .i32⟩
  | .hbm, ⟨67, _⟩ => ⟨S6600000, .i32⟩
  | .hbm, ⟨68, _⟩ => ⟨S6600000, .i32⟩
  | .hbm, ⟨69, _⟩ => ⟨S6600000, .i32⟩
  | .hbm, ⟨70, _⟩ => ⟨S6600000x1, .i32⟩
  | .hbm, ⟨71, _⟩ => ⟨S6600000x16, .f32⟩
  | .hbm, ⟨72, _⟩ => ⟨S6600000x1, .f32⟩
  | .hbm, ⟨73, _⟩ => ⟨S6600000x16, .f32⟩
  | .hbm, ⟨74, _⟩ => ⟨S6600000x16, .f32⟩
  | .hbm, ⟨75, _⟩ => ⟨S_, .f32⟩
  | .hbm, ⟨76, _⟩ => ⟨S200000x16, .f32⟩
  | .hbm, ⟨77, _⟩ => ⟨S6600000x1, .i32⟩
  | .hbm, ⟨78, _⟩ => ⟨S200000x16, .f32⟩
  | .hbm, ⟨79, _⟩ => ⟨S200000x16, .f32⟩
  | .hbm, ⟨80, _⟩ => ⟨S_, .f32⟩
  | .hbm, ⟨81, _⟩ => ⟨S4096x16, .f32⟩
  | .hbm, ⟨82, _⟩ => ⟨S200000x1, .i32⟩
  | .hbm, ⟨83, _⟩ => ⟨S4096x16, .f32⟩
  | .hbm, ⟨84, _⟩ => ⟨S4096x27, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S5000x16, .f32⟩
  | .local _ .vmem, ⟨6, _⟩ => ⟨S5000x16, .f32⟩
  | .local _ .vmem, ⟨7, _⟩ => ⟨S16, .f32⟩
  | .local _ .vmem, ⟨8, _⟩ => ⟨S5000x16, .f32⟩
  | .local _ .vmem, ⟨9, _⟩ => ⟨S5000x16, .f32⟩
  | .local _ .vmem, ⟨10, _⟩ => ⟨S10000x16, .f32⟩
  | .local _ .vmem, ⟨11, _⟩ => ⟨S10000x16, .f32⟩
  | .local _ .vmem, ⟨12, _⟩ => ⟨S16x16, .f32⟩
  | .local _ .vmem, ⟨13, _⟩ => ⟨S10000x16, .f32⟩
  | .local _ .vmem, ⟨14, _⟩ => ⟨S10000x16, .f32⟩
  | .local _ .vmem, ⟨15, _⟩ => ⟨S5000x16, .f32⟩
  | .local _ .vmem, ⟨16, _⟩ => ⟨S5000x16, .f32⟩
  | .local _ .vmem, ⟨17, _⟩ => ⟨S16, .f32⟩
  | .local _ .vmem, ⟨18, _⟩ => ⟨S5000x16, .f32⟩
  | .local _ .vmem, ⟨19, _⟩ => ⟨S5000x16, .f32⟩
  | .local _ .vmem, ⟨20, _⟩ => ⟨S4096x16, .f32⟩
  | .local _ .vmem, ⟨21, _⟩ => ⟨S16x100, .f32⟩
  | .local _ .vmem, ⟨22, _⟩ => ⟨S100, .f32⟩
  | .local _ .vmem, ⟨23, _⟩ => ⟨S100x27, .f32⟩
  | .local _ .vmem, ⟨24, _⟩ => ⟨S27, .f32⟩
  | .local _ .vmem, ⟨25, _⟩ => ⟨S4096x27, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S4096x16 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S16x100 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S100 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S100x27 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S27 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S4096x27 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  bcast_S_S4096x16 : S_.BroadcastsInDim S4096x16 (![] : Fin 0 → Fin S4096x16.rank)
  bcast_S200000_S200000x1_0 : S200000.BroadcastsInDim S200000x1 (![0] : Fin 1 → Fin S200000x1.rank)
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S16x100_S16x100_0_0 : ∀ a, (![0, 0] : Fin 2 → Nat) a + S16x100.size a ≤ S16x100.size a
  h_S16x100 : 0 < S16x100.numel
  inb_S100_S100_0 : ∀ a, (![0] : Fin 1 → Nat) a + S100.size a ≤ S100.size a
  h_S100 : 0 < S100.numel
  shapeCasts_S100_S1x100 : S100.ShapeCasts S1x100
  broadcasts_S1x100_S4096x100 : S1x100.Broadcasts S4096x100
  inb_S100x27_S100x27_0_0 : ∀ a, (![0, 0] : Fin 2 → Nat) a + S100x27.size a ≤ S100x27.size a
  h_S100x27 : 0 < S100x27.numel
  inb_S27_S27_0 : ∀ a, (![0] : Fin 1 → Nat) a + S27.size a ≤ S27.size a
  h_S27 : 0 < S27.numel
  shapeCasts_S27_S1x27 : S27.ShapeCasts S1x27
  broadcasts_S1x27_S4096x27 : S1x27.Broadcasts S4096x27
  inb_S4096x27_S4096x27_0_0 : ∀ a, (![0, 0] : Fin 2 → Nat) a + S4096x27.size a ≤ S4096x27.size a
  h_S4096x27 : 0 < S4096x27.numel
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x128_S128x16_S10000x16_1_0_0_1_n_n_wf : DotDims.WF S10000x128 S128x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x16_S10000x16_1_0_0_1_n_n_wf : DotDims.WF S10000x16 S16x16 S10000x16 [1] [0] [0] [1] [] []
  scatter_S4096x16_S200000x1_S200000x16_1_0_0_1_wf : ScatterDims.WF S4096x16 S200000x1 S200000x16 [1] [0] [0] 1
  dot_S4096x16_S16x100_S4096x100_1_0_0_1_n_n_wf : DotDims.WF S4096x16 S16x100 S4096x100 [1] [0] [0] [1] [] []
  dot_S4096x100_S100x27_S4096x27_1_0_0_1_n_n_wf : DotDims.WF S4096x100 S100x27 S4096x27 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S200000x16.size a
  hwx1_0 : ∀ i : grid1.Coords, EltTy.bits .f32 = 32 ∨ (Rect.block (s := S200000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S200000x16.size a
  hwx1_2 : ∀ i : grid1.Coords, EltTy.bits .f32 = 32 ∨ (Rect.block (s := S200000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S200000x16.size a
  hwx2_0 : ∀ i : grid2.Coords, EltTy.bits .f32 = 32 ∨ (Rect.block (s := S200000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S200000x16.size a
  hwx2_2 : ∀ i : grid2.Coords, EltTy.bits .f32 = 32 ∨ (Rect.block (s := S200000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S200000x16.size a
  hwx3_0 : ∀ i : grid3.Coords, EltTy.bits .f32 = 32 ∨ (Rect.block (s := S200000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16.size a ≤ S16.size a
  hwx3_1 : ∀ i : grid3.Coords, EltTy.bits .f32 = 32 ∨ (Rect.block (s := S16) S16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S200000x16.size a
  hwx3_2 : ∀ i : grid3.Coords, EltTy.bits .f32 = 32 ∨ (Rect.block (s := S200000x16) S5000x16.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S4096x16.size a ≤ S4096x16.size a
  hwx4_0 : ∀ i : grid4.Coords, EltTy.bits .f32 = 32 ∨ (Rect.block (s := S4096x16) S4096x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x100.size a ≤ S16x100.size a
  hwx4_1 : ∀ i : grid4.Coords, EltTy.bits .f32 = 32 ∨ (Rect.block (s := S16x100) S16x100.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S100.size a ≤ S100.size a
  hwx4_2 : ∀ i : grid4.Coords, EltTy.bits .f32 = 32 ∨ (Rect.block (s := S100) S100.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S100x27.size a ≤ S100x27.size a
  hwx4_3 : ∀ i : grid4.Coords, EltTy.bits .f32 = 32 ∨ (Rect.block (s := S100x27) S100x27.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S27.size a ≤ S27.size a
  hwx4_4 : ∀ i : grid4.Coords, EltTy.bits .f32 = 32 ∨ (Rect.block (s := S27) S27.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S4096x27.size a ≤ S4096x27.size a
  hwx4_5 : ∀ i : grid4.Coords, EltTy.bits .f32 = 32 ∨ (Rect.block (s := S4096x27) S4096x27.size (cc4_transform_5 i) (hinb4_5 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def scatter_S4096x16_S200000x1_S200000x16_1_0_0_1 : ScatterDims S4096x16 S200000x1 S200000x16 where
  updateWindowDims := [1]
  insertedWindowDims := [0]
  scatterDimsToOperandDims := [0]
  indexVectorDim := 1
  wf := scatter_S4096x16_S200000x1_S200000x16_1_0_0_1_wf
def dot_S4096x16_S16x100_S4096x100_1_0_0_1_n_n : DotDims S4096x16 S16x100 S4096x100 where
  lhsContracting := [1]
  rhsContracting := [0]
  lhsNonContracting := [0]
  rhsNonContracting := [1]
  lhsBatch := []
  rhsBatch := []
  wf := dot_S4096x16_S16x100_S4096x100_1_0_0_1_n_n_wf
def dot_S4096x100_S100x27_S4096x27_1_0_0_1_n_n : DotDims S4096x100 S100x27 S4096x27 where
  lhsContracting := [1]
  rhsContracting := [0]
  lhsNonContracting := [0]
  rhsNonContracting := [1]
  lhsBatch := []
  rhsBatch := []
  wf := dot_S4096x100_S100x27_S4096x27_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S4096x16.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S16x100.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S100.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S100x27.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S27.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60) S4096x27.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S200000 : Shape := ⟨1, ![200000]⟩
abbrev S128x16 : Shape := ⟨2, ![128, 16]⟩
abbrev S16 : Shape := ⟨1, ![16]⟩
abbrev S16x16 : Shape := ⟨2, ![16, 16]⟩
abbrev S16x100 : Shape := ⟨2, ![16, 100]⟩
abbrev S100 : Shape := ⟨1, ![100]⟩
abbrev S100x27 : Shape := ⟨2, ![100, 27]⟩
abbrev S27 : Shape := ⟨1, ![27]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S4096x16 : Shape := ⟨2, ![4096, 16]⟩
abbrev S200000x1 : Shape := ⟨2, ![200000, 1]⟩
abbrev S4096x100 : Shape := ⟨2, ![4096, 100]⟩
abbrev S1x100 : Shape := ⟨2, ![1, 100]⟩
abbrev S4096x27 : Shape := ⟨2, ![4096, 27]⟩
abbrev S1x27 : Shape := ⟨2, ![1, 27]⟩

abbrev nBuf : Space → Nat
  | .hbm => 105
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S200000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x100, .f32⟩
  | .hbm, ⟨8, _⟩ => ⟨S100, .f32⟩
  | .hbm, ⟨9, _⟩ => ⟨S100x27, .f32⟩
  | .hbm, ⟨10, _⟩ => ⟨S27, .f32⟩
  | .hbm, ⟨11, _⟩ => ⟨S1x6400000, .i32⟩
  | .hbm, ⟨12, _⟩ => ⟨S6400000, .i32⟩
  | .hbm, ⟨13, _⟩ => ⟨S1x6400000, .i32⟩
  | .hbm, ⟨14, _⟩ => ⟨S6400000, .i32⟩
  | .hbm, ⟨15, _⟩ => ⟨S200000, .i32⟩
  | .hbm, ⟨16, _⟩ => ⟨S6600000, .i32⟩
  | .hbm, ⟨17, _⟩ => ⟨S6600000, .i32⟩
  | .hbm, ⟨18, _⟩ => ⟨S_, .f32⟩
  | .hbm, ⟨19, _⟩ => ⟨S6600000, .f32⟩
  | .hbm, ⟨20, _⟩ => ⟨S_, .f32⟩
  | .hbm, ⟨21, _⟩ => ⟨S200000, .f32⟩
  | .hbm, ⟨22, _⟩ => ⟨S6600000x1, .i32⟩
  | .hbm, ⟨23, _⟩ => ⟨S200000, .f32⟩
  | .hbm, ⟨24, _⟩ => ⟨S200000, .f32⟩
  | .hbm, ⟨25, _⟩ => ⟨S_, .i32⟩
  | .hbm, ⟨26, _⟩ => ⟨S6600000, .i32⟩
  | .hbm, ⟨27, _⟩ => ⟨S6600000, .i1⟩
  | .hbm, ⟨28, _⟩ => ⟨S_, .i32⟩
  | .hbm, ⟨29, _⟩ => ⟨S6600000, .i32⟩
  | .hbm, ⟨30, _⟩ => ⟨S6600000, .i32⟩
  | .hbm, ⟨31, _⟩ => ⟨S6600000, .i32⟩
  | .hbm, ⟨32, _⟩ => ⟨S6600000x1, .i32⟩
  | .hbm, ⟨33, _⟩ => ⟨S6600000, .f32⟩
  | .hbm, ⟨34, _⟩ => ⟨S_, .i32⟩
  | .hbm, ⟨35, _⟩ => ⟨S6600000, .i32⟩
  | .hbm, ⟨36, _⟩ => ⟨S6600000, .i1⟩
  | .hbm, ⟨37, _⟩ => ⟨S_, .i32⟩
  | .hbm, ⟨38, _⟩ => ⟨S6600000, .i32⟩
  | .hbm, ⟨39, _⟩ => ⟨S6600000, .i32⟩
  | .hbm, ⟨40, _⟩ => ⟨S6600000, .i32⟩
  | .hbm, ⟨41, _⟩ => ⟨S6600000x1, .i32⟩
  | .hbm, ⟨42, _⟩ => ⟨S6600000, .f32⟩
  | .hbm, ⟨43, _⟩ => ⟨S6600000, .f32⟩
  | .hbm, ⟨44, _⟩ => ⟨S200000x16, .f32⟩
  | .hbm, ⟨45, _⟩ => ⟨S_, .i32⟩
  | .hbm, ⟨46, _⟩ => ⟨S6600000, .i32⟩
  | .hbm, ⟨47, _⟩ => ⟨S6600000, .i1⟩
  | .hbm, ⟨48, _⟩ => ⟨S_, .i32⟩
  | .hbm, ⟨49, _⟩ => ⟨S6600000, .i32⟩
  | .hbm, ⟨50, _⟩ => ⟨S6600000, .i32⟩
  | .hbm, ⟨51, _⟩ => ⟨S6600000, .i32⟩
  | .hbm, ⟨52, _⟩ => ⟨S6600000x1, .i32⟩
  | .hbm, ⟨53, _⟩ => ⟨S6600000x16, .f32⟩
  | .hbm, ⟨54, _⟩ => ⟨S6600000x1, .f32⟩
  | .hbm, ⟨55, _⟩ => ⟨S6600000x16, .f32⟩
  | .hbm, ⟨56, _⟩ => ⟨S6600000x16, .f32⟩
  | .hbm, ⟨57, _⟩ => ⟨S_, .f32⟩
  | .hbm, ⟨58, _⟩ => ⟨S200000x16, .f32⟩
  | .hbm, ⟨59, _⟩ => ⟨S6600000x1, .i32⟩
  | .hbm, ⟨60, _⟩ => ⟨S200000x16, .f32⟩
  | .hbm, ⟨61, _⟩ => ⟨S1x16, .f32⟩
  | .hbm, ⟨62, _⟩ => ⟨S200000x16, .f32⟩
  | .hbm, ⟨63, _⟩ => ⟨S200000x16, .f32⟩
  | .hbm, ⟨64, _⟩ => ⟨S_, .f32⟩
  | .hbm, ⟨65, _⟩ => ⟨S200000x16, .f32⟩
  | .hbm, ⟨66, _⟩ => ⟨S200000x16, .f32⟩
  | .hbm, ⟨67, _⟩ => ⟨S200000x16, .f32⟩
  | .hbm, ⟨68, _⟩ => ⟨S_, .i32⟩
  | .hbm, ⟨69, _⟩ => ⟨S6600000, .i32⟩
  | .hbm, ⟨70, _⟩ => ⟨S6600000, .i1⟩
  | .hbm, ⟨71, _⟩ => ⟨S_, .i32⟩
  | .hbm, ⟨72, _⟩ => ⟨S6600000, .i32⟩
  | .hbm, ⟨73, _⟩ => ⟨S6600000, .i32⟩
  | .hbm, ⟨74, _⟩ => ⟨S6600000, .i32⟩
  | .hbm, ⟨75, _⟩ => ⟨S6600000x1, .i32⟩
  | .hbm, ⟨76, _⟩ => ⟨S6600000x16, .f32⟩
  | .hbm, ⟨77, _⟩ => ⟨S6600000x1, .f32⟩
  | .hbm, ⟨78, _⟩ => ⟨S6600000x16, .f32⟩
  | .hbm, ⟨79, _⟩ => ⟨S6600000x16, .f32⟩
  | .hbm, ⟨80, _⟩ => ⟨S_, .f32⟩
  | .hbm, ⟨81, _⟩ => ⟨S200000x16, .f32⟩
  | .hbm, ⟨82, _⟩ => ⟨S6600000x1, .i32⟩
  | .hbm, ⟨83, _⟩ => ⟨S200000x16, .f32⟩
  | .hbm, ⟨84, _⟩ => ⟨S1x16, .f32⟩
  | .hbm, ⟨85, _⟩ => ⟨S200000x16, .f32⟩
  | .hbm, ⟨86, _⟩ => ⟨S200000x16, .f32⟩
  | .hbm, ⟨87, _⟩ => ⟨S_, .f32⟩
  | .hbm, ⟨88, _⟩ => ⟨S4096x16, .f32⟩
  | .hbm, ⟨89, _⟩ => ⟨S200000x1, .i32⟩
  | .hbm, ⟨90, _⟩ => ⟨S4096x16, .f32⟩
  | .hbm, ⟨91, _⟩ => ⟨S_, .f32⟩
  | .hbm, ⟨92, _⟩ => ⟨S4096x16, .f32⟩
  | .hbm, ⟨93, _⟩ => ⟨S4096x16, .f32⟩
  | .hbm, ⟨94, _⟩ => ⟨S4096x100, .f32⟩
  | .hbm, ⟨95, _⟩ => ⟨S1x100, .f32⟩
  | .hbm, ⟨96, _⟩ => ⟨S4096x100, .f32⟩
  | .hbm, ⟨97, _⟩ => ⟨S4096x100, .f32⟩
  | .hbm, ⟨98, _⟩ => ⟨S_, .f32⟩
  | .hbm, ⟨99, _⟩ => ⟨S4096x100, .f32⟩
  | .hbm, ⟨100, _⟩ => ⟨S4096x100, .f32⟩
  | .hbm, ⟨101, _⟩ => ⟨S4096x27, .f32⟩
  | .hbm, ⟨102, _⟩ => ⟨S1x27, .f32⟩
  | .hbm, ⟨103, _⟩ => ⟨S4096x27, .f32⟩
  | .hbm, ⟨104, _⟩ => ⟨S4096x27, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call2_cst : Ref sig .tc := ⟨.hbm, 98, rfl⟩
abbrev main_call2_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S4096x16 : S_.BroadcastsInDim S4096x16 (![] : Fin 0 → Fin S4096x16.rank)
  bcast_S200000_S200000x1_0 : S200000.BroadcastsInDim S200000x1 (![0] : Fin 1 → Fin S200000x1.rank)
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  bcast_S_S4096x100 : S_.BroadcastsInDim S4096x100 (![] : Fin 0 → Fin S4096x100.rank)
  bcast_S27_S1x27_1 : S27.BroadcastsInDim S1x27 (![1] : Fin 1 → Fin S1x27.rank)
  bcast_S1x27_S4096x27_0_1 : S1x27.BroadcastsInDim S4096x27 (![0, 1] : Fin 2 → Fin S4096x27.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x128_S128x16_S200000x16_1_0_0_1_n_n_wf : DotDims.WF S200000x128 S128x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x16_S200000x16_1_0_0_1_n_n_wf : DotDims.WF S200000x16 S16x16 S200000x16 [1] [0] [0] [1] [] []
  scatter_S4096x16_S200000x1_S200000x16_1_0_0_1_wf : ScatterDims.WF S4096x16 S200000x1 S200000x16 [1] [0] [0] 1
  dot_S4096x16_S16x100_S4096x100_1_0_0_1_n_n_wf : DotDims.WF S4096x16 S16x100 S4096x100 [1] [0] [0] [1] [] []
  dot_S4096x100_S100x27_S4096x27_1_0_0_1_n_n_wf : DotDims.WF S4096x100 S100x27 S4096x27 [1] [0] [0] [1] [] []

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def scatter_S4096x16_S200000x1_S200000x16_1_0_0_1 : ScatterDims S4096x16 S200000x1 S200000x16 where
  updateWindowDims := [1]
  insertedWindowDims := [0]
  scatterDimsToOperandDims := [0]
  indexVectorDim := 1
  wf := scatter_S4096x16_S200000x1_S200000x16_1_0_0_1_wf
def dot_S4096x16_S16x100_S4096x100_1_0_0_1_n_n : DotDims S4096x16 S16x100 S4096x100 where
  lhsContracting := [1]
  rhsContracting := [0]
  lhsNonContracting := [0]
  rhsNonContracting := [1]
  lhsBatch := []
  rhsBatch := []
  wf := dot_S4096x16_S16x100_S4096x100_1_0_0_1_n_n_wf
def dot_S4096x100_S100x27_S4096x27_1_0_0_1_n_n : DotDims S4096x100 S100x27 S4096x27 where
  lhsContracting := [1]
  rhsContracting := [0]
  lhsNonContracting := [0]
  rhsNonContracting := [1]
  lhsBatch := []
  rhsBatch := []
  wf := dot_S4096x100_S100x27_S4096x27_1_0_0_1_n_n_wf

class Facts : Prop extends Facts₀ where

variable [Facts]
-- ==== Proof.KernelRun.lean ====
/-
  The graph-convolution kernel's run with every buffer named.

  The program is five kernel launches among four stretches of host operations.  Its frame run already
  knows what every buffer of the TensorCore holds when the last launch returns: the fold `W9` of the
  host stretches and the launches' write-backs over the launch memory.  Here that knowledge is kept in
  the post-condition instead of being projected onto the argument arrays alone, so that the result
  array can be read off the fold.
-/
import proofs.«125375_j2783138808276_2_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and on every core each unscoped buffer ends at
    the fold's last stage `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The result array after the run is the fold's last stage at the result's buffer. -/
theorem run_result : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)
    (run_all m ρ)

end Cert.KernelIdeal.Net

end
-- ==== Proof.Kept.lean ====
/-
  What a launch or a host stretch does not write stays as it was.

  The buffer contents at the nine boundaries of the program are a fold: a host stretch changes only the buffers its
  operations write, a launch only its output array.  Each argument array is therefore still the launch memory's
  when the one launch that reads it is entered, and the edge lists and edge weights computed before the first
  launch are still there when the second round of message passing reads them.
-/
import proofs.«125375_j2783138808276_2_alg».proof.Proof.Gen.KernelIdeal.Frame

set_option maxRecDepth 16384

noncomputable section

namespace Cert.KernelIdeal.Net

open Cert.KernelIdeal Cert.KernelIdeal.Gen Idealize.ShloMosaic Idealize.ShloMosaic.TcCoe Idealize.SL.Sem

/-- A host stretch leaves a buffer none of its operations writes: each operation's one written buffer is another. -/
macro "host_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

variable {F : FTy → Type} [FloatOps F]
variable (m : (ℓ : Loc nD τ sig) → Buf (Elt F) ℓ) (ρ : Dev nD → PrngReg) (c : Dev nD)

/-- Argument 0 is still the launch memory's when it is first read: nothing before writes it. -/
theorem arg0_at1 : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

/-- Argument 3 is still the launch memory's when it is first read: nothing before writes it. -/
theorem arg3_at1 : W1 m ρ c (Proc.devRef .tc main_arg3) = m ((c : Thread nD τ).loc main_arg3) :=
  calc W1 m ρ c (Proc.devRef .tc main_arg3)
    _ = W0 m ρ c (Proc.devRef .tc main_arg3) := by host_keeps hostOps0
    _ = m ((c : Thread nD τ).loc main_arg3) := rfl

/-- Argument 4 is still the launch memory's when it is first read: nothing before writes it. -/
theorem arg4_at3 : W3 m ρ c (Proc.devRef .tc main_arg4) = m ((c : Thread nD τ).loc main_arg4) :=
  calc W3 m ρ c (Proc.devRef .tc main_arg4)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

/-- Argument 5 is still the launch memory's when it is first read: nothing before writes it. -/
theorem arg5_at4 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

/-- Argument 6 is still the launch memory's when it is first read: nothing before writes it. -/
theorem arg6_at6 : W6 m ρ c (Proc.devRef .tc main_arg6) = m ((c : Thread nD τ).loc main_arg6) :=
  calc W6 m ρ c (Proc.devRef .tc main_arg6)
    _ = W5 m ρ c (Proc.devRef .tc main_arg6) := by host_keeps hostOps3
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- Argument 2 is still the launch memory's when it is first read: nothing before writes it. -/
theorem arg2_at7 : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := by host_keeps hostOps3
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-- Argument 7 is still the launch memory's when it is first read: nothing before writes it. -/
theorem arg7_at8 : W8 m ρ c (Proc.devRef .tc main_arg7) = m ((c : Thread nD τ).loc main_arg7) :=
  calc W8 m ρ c (Proc.devRef .tc main_arg7)
    _ = W7 m ρ c (Proc.devRef .tc main_arg7) := by host_keeps hostOps4
    _ = W6 m ρ c (Proc.devRef .tc main_arg7) := W7_of_ne m ρ c main_arg7 (by decide)
    _ = W5 m ρ c (Proc.devRef .tc main_arg7) := by host_keeps hostOps3
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

/-- Argument 8 is still the launch memory's when it is first read: nothing before writes it. -/
theorem arg8_at8 : W8 m ρ c (Proc.devRef .tc main_arg8) = m ((c : Thread nD τ).loc main_arg8) :=
  calc W8 m ρ c (Proc.devRef .tc main_arg8)
    _ = W7 m ρ c (Proc.devRef .tc main_arg8) := by host_keeps hostOps4
    _ = W6 m ρ c (Proc.devRef .tc main_arg8) := W7_of_ne m ρ c main_arg8 (by decide)
    _ = W5 m ρ c (Proc.devRef .tc main_arg8) := by host_keeps hostOps3
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-- Argument 9 is still the launch memory's when it is first read: nothing before writes it. -/
theorem arg9_at8 : W8 m ρ c (Proc.devRef .tc main_arg9) = m ((c : Thread nD τ).loc main_arg9) :=
  calc W8 m ρ c (Proc.devRef .tc main_arg9)
    _ = W7 m ρ c (Proc.devRef .tc main_arg9) := by host_keeps hostOps4
    _ = W6 m ρ c (Proc.devRef .tc main_arg9) := W7_of_ne m ρ c main_arg9 (by decide)
    _ = W5 m ρ c (Proc.devRef .tc main_arg9) := by host_keeps hostOps3
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-- Argument 10 is still the launch memory's when it is first read: nothing before writes it. -/
theorem arg10_at8 : W8 m ρ c (Proc.devRef .tc main_arg10) = m ((c : Thread nD τ).loc main_arg10) :=
  calc W8 m ρ c (Proc.devRef .tc main_arg10)
    _ = W7 m ρ c (Proc.devRef .tc main_arg10) := by host_keeps hostOps4
    _ = W6 m ρ c (Proc.devRef .tc main_arg10) := W7_of_ne m ρ c main_arg10 (by decide)
    _ = W5 m ρ c (Proc.devRef .tc main_arg10) := by host_keeps hostOps3
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

/-- The edge data computed before the first launch is untouched by it. -/
theorem v5_at2 : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

/-- The edge data is untouched by the first three launches and the stretch between them. -/
theorem v5_at5 : W5 m ρ c (Proc.devRef .tc main_v5) = W1 m ρ c (Proc.devRef .tc main_v5) :=
  calc W5 m ρ c (Proc.devRef .tc main_v5)
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := by host_keeps hostOps1
    _ = W1 m ρ c (Proc.devRef .tc main_v5) := W2_of_ne m ρ c main_v5 (by decide)

/-- The edge data computed before the first launch is untouched by it. -/
theorem v6_at2 : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

/-- The edge data is untouched by the first three launches and the stretch between them. -/
theorem v6_at5 : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by host_keeps hostOps1
    _ = W1 m ρ c (Proc.devRef .tc main_v6) := W2_of_ne m ρ c main_v6 (by decide)

/-- The edge data computed before the first launch is untouched by it. -/
theorem v26_at2 : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

/-- The edge data is untouched by the first three launches and the stretch between them. -/
theorem v26_at5 : W5 m ρ c (Proc.devRef .tc main_v26) = W1 m ρ c (Proc.devRef .tc main_v26) :=
  calc W5 m ρ c (Proc.devRef .tc main_v26)
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := by host_keeps hostOps1
    _ = W1 m ρ c (Proc.devRef .tc main_v26) := W2_of_ne m ρ c main_v26 (by decide)

end Cert.KernelIdeal.Net

end
-- ==== Proof.Spec.lean ====
/-
  The network's dense stages as functions of extended-real arrays, index by index.

  A two-layer graph convolution followed by a pooled two-layer perceptron has four kinds of dense stage:
  a matrix product, a row-broadcast bias, the same followed by a clamp at zero, and the perceptron head.
  Each is stated here once, over arrays of any extents, so that a kernel launch and the reference's host
  operations can both be read as the same function.
-/
import Idealize.ShloMosaic.PureOps.Ideal
import Idealize.ShloMosaic.Lib.ValueIdx

noncomputable section

open scoped BigOperators

namespace Cert.Net

open Idealize.ShloMosaic Idealize.ShloMosaic.ValueIdx

/-- The zero offsets of a rank-2 block, as a function. -/
theorem zero2 : (![0, 0] : Fin 2 → Nat) = fun _ => 0 := funext fun a => by fin_cases a <;> rfl
/-- The zero offset of a rank-1 block, as a function. -/
theorem zero1 : (![0] : Fin 1 → Nat) = fun _ => 0 := funext fun a => by fin_cases a; rfl

/-- The product of an M×K by a K×N matrix: entry (p, q) is the sum over k of l (p, k) · r (k, q). -/
def mm {M K N : Nat} (l : (⟨2, ![M, K]⟩ : Shape).Idx → EReal) (r : (⟨2, ![K, N]⟩ : Shape).Idx → EReal) :
    (⟨2, ![M, N]⟩ : Shape).Idx → EReal :=
  fun i => ∑ k : Fin K, l (ix2 (n0 := M) (i 0) k) * r (ix2 (n1 := N) k (i 1))

/-- The product at (p, q). -/
theorem mm_apply {M K N : Nat} (l : (⟨2, ![M, K]⟩ : Shape).Idx → EReal) (r : (⟨2, ![K, N]⟩ : Shape).Idx → EReal)
    (p : Fin M) (q : Fin N) : mm l r (ix2 p q) = ∑ k : Fin K, l (ix2 p k) * r (ix2 k q) := rfl

/-- A bias vector added to every row: entry (p, q) is a (p, q) + b q. -/
def addRow {M N : Nat} (a : (⟨2, ![M, N]⟩ : Shape).Idx → EReal) (b : (⟨1, ![N]⟩ : Shape).Idx → EReal) :
    (⟨2, ![M, N]⟩ : Shape).Idx → EReal :=
  fun i => a i + b (ix1 (n := N) (i 1))

/-- The biased matrix at (p, q). -/
theorem addRow_apply {M N : Nat} (a : (⟨2, ![M, N]⟩ : Shape).Idx → EReal) (b : (⟨1, ![N]⟩ : Shape).Idx → EReal)
    (p : Fin M) (q : Fin N) : addRow a b (ix2 p q) = a (ix2 p q) + b (ix1 q) := rfl

/-- The clamp at zero, entry by entry. -/
def relu {s : Shape} (a : s.Idx → EReal) : s.Idx → EReal := fun i => max (a i) 0

/-- The clamp at an index. -/
theorem relu_apply {s : Shape} (a : s.Idx → EReal) (i : s.Idx) : relu a i = max (a i) 0 := rfl

/-- The perceptron head on pooled features g: clamp, a layer with bias and clamp, a layer with bias. -/
def head {G H D C : Nat} (g : (⟨2, ![G, H]⟩ : Shape).Idx → EReal) (w1 : (⟨2, ![H, D]⟩ : Shape).Idx → EReal)
    (b1 : (⟨1, ![D]⟩ : Shape).Idx → EReal) (w2 : (⟨2, ![D, C]⟩ : Shape).Idx → EReal) (b2 : (⟨1, ![C]⟩ : Shape).Idx → EReal) :
    (⟨2, ![G, C]⟩ : Shape).Idx → EReal :=
  addRow (mm (relu (addRow (mm (relu g) w1) b1)) w2) b2

end Cert.Net

end
-- ==== Proof.LibPlainDot.lean ====
/-
  A rank-2 matrix product read at an index, on the extended reals.

  A product of an M×K by a K×N operand whose dimension numbers contract the left operand's axis 1 with the right
  operand's axis 0, with no batch axis, has at row p and column q the value  ∑ k, l (p, k) * r (k, q).  This holds
  both for the accumulating product started from the zero array and for the host's general dot, whatever name the
  program's dimension record has: a record with those six lists is the plain one.  Because the value at (p, q)
  reads only row p of the left operand, a block of rows of a product is the product of that block of rows.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- A dimension record of an M×K by K×N product with contraction [1]×[0], free axes [0] and [1] and no batch axis
    is the plain record: the side condition is a proposition, so the six lists determine it. -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

/-- The plain record contracts over one axis of extent K. -/
abbrev kEquiv (M K N : Nat) : (DotDims.plain M K N).contr.Idx ≃ Fin K := contrEquiv1 (DotDims.plain M K N) K rfl rfl

/-- The left operand's index at result (p, q) and contraction position k is (p, k). -/
theorem lhsIdx_plain {M K N : Nat} (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single rfl (ix2 p q) _).trans
      (contrEquiv1_symm_val (DotDims.plain M K N) K rfl rfl k)

/-- The right operand's index at result (p, q) and contraction position k is (k, q). -/
theorem rhsIdx_plain {M K N : Nat} (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single rfl (ix2 p q) _).trans
      (contrEquiv1_symm_val (DotDims.plain M K N) K rfl rfl k)
  | ⟨1, _⟩ => rfl

/-- The sum over the plain record's contraction positions, re-indexed by k below K. -/
theorem sum_plain {M K N : Nat} {φ₁ φ₂ : FTy} (l : FVec Ideal ⟨2, ![M, K]⟩ φ₁) (r : FVec Ideal ⟨2, ![K, N]⟩ φ₂)
    (p : Fin M) (q : Fin N) :
    (∑ c : (DotDims.plain M K N).contr.Idx,
        l ((DotDims.plain M K N).lhsIdx (ix2 p q) c) * r ((DotDims.plain M K N).rhsIdx (ix2 p q) c) : EReal)
      = ∑ k : Fin K, l (ix2 p k) * r (ix2 k q) := by
  rw [← Equiv.sum_comp (kEquiv M K N).symm]
  refine Finset.sum_congr rfl fun k _ => ?_
  rw [lhsIdx_plain, rhsIdx_plain]

/-- The accumulating product started from the zero array, at (p, q): the sum over k of l (p, k) * r (k, q). -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) := by
  subst hd
  rw [Ideal.matmul_constant_zero_apply]
  exact sum_plain l r p q

/-- The host's general dot at (p, q): the same sum. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) := by
  subst hd
  rw [Ideal.dotGeneral_apply]
  exact sum_plain l r p q

end Idealize.ShloMosaic.PlainDot

end
-- ==== Proof.Region0.lean ====
/-
  The first launch: the node features times the first weight matrix, twenty blocks of ten thousand rows.

  Each grid point loads a block of rows of the features and the whole weight matrix and stores their product
  into the same block of rows of the output.  Entry (p, q) of a product reads row p of the left operand only, so the
  block of rows of the product is the product of the block of rows, and the blocks tile the output: the output
  array ends as the whole product.
-/
import proofs.«125375_j2783138808276_2_alg».proof.Proof.Gen.KernelIdeal.Frame
import proofs.«125375_j2783138808276_2_alg».proof.Proof.Spec
import proofs.«125375_j2783138808276_2_alg».proof.Proof.LibPlainDot
import Idealize.ShloMosaic.Lib.Pipeline.Value
import Idealize.ShloMosaic.Lib.ValueIdx

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.Net
open Idealize.ShloMosaic.Pipeline (Dat)

/-- The body's value at (p, q): the sum over k of the feature block's (p, k) times the weight's (k, q). -/
theorem pay0_apply (x0 : Vec Ideal S10000x128 .f32) (x1 : Vec Ideal S128x16 .f32) (p : Fin 10000) (q : Fin 16) :
    k0_pay1 (F := Ideal) x0 x1 (ix2 p q) = ∑ k : Fin 128, x0 (ix2 p k) * x1 (ix2 k q) := by
  unfold k0_pay1
  exact PlainDot.matmul_zero_apply _ (PlainDot.eq_plain _ rfl rfl rfl rfl rfl rfl) none _ _ p q

/-- Where the blocks sit: at grid point t the feature block and the output block are block-row t, and the weight block is the whole matrix. -/
theorem idx_facts0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

variable (V : (c : Dev nD) → (b : Ref sig .tc) → Buf (Elt Ideal) ((c : Thread nD τ).loc b))

/-- What grid point t writes back is block-row t of the whole product. -/
theorem flushed0 (c : Dev nD) (t : Fin cfg0.N) :
    (dat0 V c).flushed 2 t = ((cfg0.win 2).blk t).view.read (Elt Ideal) (mm (M := 200000) (K := 128) (N := 16) (V c main_arg0) (V c main_arg3)) := by
  show (cfg0.win 2).cut (grid0.coords t) ((dat0 V c).after 2 t) = _
  rw [after0_2]
  unfold out0_2
  rw [View.canon_unit_zero zero2]
  simp only [View.ld_unit_zero (S := S10000x128) zero2, View.ld_unit_zero (S := S128x16) zero2]
  funext j
  obtain ⟨e20, e21, e00, e01, e10, e11⟩ := idx_facts0 t
  show k0_pay1 (iblk0 V c 0 t) (iblk0 V c 1 t) j = mm (V c main_arg0) (V c main_arg3) (((cfg0.win 2).blk t).view.emb j)
  obtain ⟨p, q, rfl⟩ : ∃ (p : Fin 10000) (q : Fin 16), j = ix2 p q := ⟨j 0, j 1, eq_ix2 j⟩
  refine (pay0_apply _ _ p q).trans ?_
  unfold mm
  refine Finset.sum_congr rfl fun k _ => ?_
  refine congrArg₂ (· * ·) ?_ ?_
  · show V c main_arg0 (((cfg0.win 0).blk t).view.emb (ix2 p k)) = _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · show V c main_arg3 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 16 + 1 * q.val = win0_2.index t (1 : Fin 2) * 16 + 1 * q.val; omega

/-- An index is in grid point t's output block when each coordinate is in the block's range. -/
theorem mem_blk0 (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v27).slice (win0_2.rect t)).set ↔ _
  rw [View.set_slice_whole, Rect.mem_set_unit]
  exact Iff.rfl

/-- Row r of the output is in the block of grid point r / 10000. -/
theorem cover0 (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : grid0.N = 20 := N_0
  let t : Fin cfg0.N := ⟨(i 0).val / 10000, by show (i 0).val / 10000 < grid0.N; omega⟩
  obtain ⟨e20, e21, -, -, -, -⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e20]; show (i 0).val / 10000 * 10000 ≤ (i 0).val ∧ (i 0).val < (i 0).val / 10000 * 10000 + 10000; omega
  | ⟨1, _⟩ => show win0_2.index t (1 : Fin 2) * 16 ≤ (i 1).val ∧ (i 1).val < win0_2.index t (1 : Fin 2) * 16 + 16; omega

/-- After the first launch the transformed features are the whole matrix product. -/
theorem final0 (c : Dev nD) : (dat0 V c).arrAt 2 cfg0.N = mm (M := 200000) (K := 128) (N := 16) (V c main_arg0) (V c main_arg3) :=
  (dat0 V c).arrAt_eq_of_cover 2 _ (fun t _ => flushed0 V c t) cover0

end Cert.KernelIdeal.Net

end
-- ==== Proof.Region1.lean ====
/-
  The second launch: the first layer's bias and clamp, forty blocks of five thousand rows.

  Each grid point loads a block of rows of the aggregated messages and the bias vector, adds the bias to every row
  and clamps at zero.  The operation is entry by entry and the blocks tile the array, so the output array ends as
  the clamp of the whole matrix plus the bias row.
-/
import proofs.«125375_j2783138808276_2_alg».proof.Proof.Gen.KernelIdeal.Frame
import proofs.«125375_j2783138808276_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.Net
open Idealize.ShloMosaic.Pipeline (Dat)

/-- The body's value at (p, q): the block's entry plus the bias at q, clamped at zero. -/
theorem pay1_apply (x0 : Vec Ideal S5000x16 .f32) (x1 : Vec Ideal S16 .f32) (p : Fin 5000) (q : Fin 16) :
    k1_pay1 (F := Ideal) x0 x1 (ix2 p q) = max (x0 (ix2 p q) + x1 (ix1 q)) 0 := by
  unfold k1_pay1
  show max ((shapeCast S5000x16 x0 shapeCasts_S5000x16_S5000x16) (ix2 p q)
      + (broadcastTo S5000x16 (shapeCast S1x16 x1 shapeCasts_S16_S1x16) broadcasts_S1x16_S5000x16) (ix2 p q))
      (Ideal.ofBits .f32 0x00000000#32) = _
  rw [shapeCast_self, broadcastTo_1b_ab_apply, shapeCast_a_1a_apply, Ideal.ofBits_zero_f32]

/-- Where the blocks sit: at grid point t the input and output blocks are block-row t, and the bias block is the whole vector. -/
theorem idx_facts1 : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 1) = 0 :=
  (by decide +kernel : ∀ t : Fin grid1.N, _)

variable (V : (c : Dev nD) → (b : Ref sig .tc) → Buf (Elt Ideal) ((c : Thread nD τ).loc b))

/-- What grid point t writes back is block-row t of the clamped sum. -/
theorem flushed1 (c : Dev nD) (t : Fin cfg1.N) :
    (dat1 V c).flushed 2 t = ((cfg1.win 2).blk t).view.read (Elt Ideal) (relu (addRow (M := 200000) (N := 16) (V c main_v40) (V c main_arg4))) := by
  show (cfg1.win 2).cut (grid1.coords t) ((dat1 V c).after 2 t) = _
  rw [after1_2]
  unfold out1_2
  rw [View.canon_unit_zero zero2]
  simp only [View.ld_unit_zero (S := S5000x16) zero2, View.ld_unit_zero (S := S16) zero1]
  funext j
  obtain ⟨e20, e21, e00, e01, e10⟩ := idx_facts1 t
  show k1_pay1 (iblk1 V c 0 t) (iblk1 V c 1 t) j = relu (addRow (V c main_v40) (V c main_arg4)) (((cfg1.win 2).blk t).view.emb j)
  obtain ⟨p, q, rfl⟩ : ∃ (p : Fin 5000) (q : Fin 16), j = ix2 p q := ⟨j 0, j 1, eq_ix2 j⟩
  refine (pay1_apply _ _ p q).trans ?_
  unfold relu addRow
  refine congrArg (max · 0) (congrArg₂ (· + ·) ?_ ?_)
  · show V c main_v40 (((cfg1.win 0).blk t).view.emb (ix2 p q)) = _
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 16 + 1 * q.val = win1_2.index t (1 : Fin 2) * 16 + 1 * q.val; omega
  · show V c main_arg4 (((cfg1.win 1).blk t).view.emb (ix1 q)) = _
    refine congrArg _ (funext fun a => Fin.ext ?_)
    match a with
    | ⟨0, _⟩ => show win1_1.index t (0 : Fin 1) * 16 + 1 * q.val = win1_2.index t (1 : Fin 2) * 16 + 1 * q.val; omega

/-- An index is in grid point t's output block when each coordinate is in the block's range. -/
theorem mem_blk1 (t : Fin cfg1.N) (i : S200000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v41).slice (win1_2.rect t)).set ↔ _
  rw [View.set_slice_whole, Rect.mem_set_unit]
  exact Iff.rfl

/-- Row r of the output is in the block of grid point r / 5000. -/
theorem cover1 (i : S200000x16.Idx) : ∃ t : Fin cfg1.N, (cfg1.win 2).flush t = true ∧ i ∈ ((cfg1.win 2).blk t).view.set := by
  have hi0 : (i 0).val < 200000 := (i 0).isLt
  have hi1 : (i 1).val < 16 := (i 1).isLt
  have hN : grid1.N = 40 := N_1
  let t : Fin cfg1.N := ⟨(i 0).val / 5000, by show (i 0).val / 5000 < grid1.N; omega⟩
  obtain ⟨e20, e21, -, -, -⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e20]; show (i 0).val / 5000 * 5000 ≤ (i 0).val ∧ (i 0).val < (i 0).val / 5000 * 5000 + 5000; omega
  | ⟨1, _⟩ => show win1_2.index t (1 : Fin 2) * 16 ≤ (i 1).val ∧ (i 1).val < win1_2.index t (1 : Fin 2) * 16 + 16; omega

/-- After the second launch the first layer's activations are the aggregated messages plus the bias, clamped at zero. -/
theorem final1 (c : Dev nD) : (dat1 V c).arrAt 2 cfg1.N = relu (addRow (M := 200000) (N := 16) (V c main_v40) (V c main_arg4)) :=
  (dat1 V c).arrAt_eq_of_cover 2 _ (fun t _ => flushed1 V c t) cover1

end Cert.KernelIdeal.Net

end
-- ==== Proof.Region2.lean ====
/-
  The third launch: the first layer's activations times the second weight matrix, twenty blocks of ten thousand rows.

  As in the first launch, a block of rows of a product is the product of the block of rows, and the blocks tile
  the output.
-/
import proofs.«125375_j2783138808276_2_alg».proof.Proof.Gen.KernelIdeal.Frame
import proofs.«125375_j2783138808276_2_alg».proof.Proof.Spec
import proofs.«125375_j2783138808276_2_alg».proof.Proof.LibPlainDot
import Idealize.ShloMosaic.Lib.Pipeline.Value
import Idealize.ShloMosaic.Lib.ValueIdx

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.Net
open Idealize.ShloMosaic.Pipeline (Dat)

/-- The body's value at (p, q): the sum over k of the activation block's (p, k) times the weight's (k, q). -/
theorem pay2_apply (x0 : Vec Ideal S10000x16 .f32) (x1 : Vec Ideal S16x16 .f32) (p : Fin 10000) (q : Fin 16) :
    k2_pay1 (F := Ideal) x0 x1 (ix2 p q) = ∑ k : Fin 16, x0 (ix2 p k) * x1 (ix2 k q) := by
  unfold k2_pay1
  rw [shapeCast_self]
  exact PlainDot.matmul_zero_apply _ (PlainDot.eq_plain _ rfl rfl rfl rfl rfl rfl) none _ _ p q

/-- Where the blocks sit: at grid point t the activation block and the output block are block-row t, and the weight block is the whole matrix. -/
theorem idx_facts2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

variable (V : (c : Dev nD) → (b : Ref sig .tc) → Buf (Elt Ideal) ((c : Thread nD τ).loc b))

/-- What grid point t writes back is block-row t of the whole product. -/
theorem flushed2 (c : Dev nD) (t : Fin cfg2.N) :
    (dat2 V c).flushed 2 t = ((cfg2.win 2).blk t).view.read (Elt Ideal) (mm (M := 200000) (K := 16) (N := 16) (V c main_v41) (V c main_arg5)) := by
  show (cfg2.win 2).cut (grid2.coords t) ((dat2 V c).after 2 t) = _
  rw [after2_2]
  unfold out2_2
  rw [View.canon_unit_zero zero2]
  simp only [View.ld_unit_zero (S := S10000x16) zero2, View.ld_unit_zero (S := S16x16) zero2]
  funext j
  obtain ⟨e20, e21, e00, e01, e10, e11⟩ := idx_facts2 t
  show k2_pay1 (iblk2 V c 0 t) (iblk2 V c 1 t) j = mm (V c main_v41) (V c main_arg5) (((cfg2.win 2).blk t).view.emb j)
  obtain ⟨p, q, rfl⟩ : ∃ (p : Fin 10000) (q : Fin 16), j = ix2 p q := ⟨j 0, j 1, eq_ix2 j⟩
  refine (pay2_apply _ _ p q).trans ?_
  unfold mm
  refine Finset.sum_congr rfl fun k _ => ?_
  refine congrArg₂ (· * ·) ?_ ?_
  · show V c main_v41 (((cfg2.win 0).blk t).view.emb (ix2 p k)) = _
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 16 + 1 * k.val = k.val; omega
  · show V c main_arg5 (((cfg2.win 1).blk t).view.emb (ix2 k q)) = _
    refine congrArg _ (funext fun a => Fin.ext ?_)
    match a with
    | ⟨0, _⟩ => show win2_1.index t (0 : Fin 2) * 16 + 1 * k.val = k.val; omega
    | ⟨1, _⟩ => show win2_1.index t (1 : Fin 2) * 16 + 1 * q.val = win2_2.index t (1 : Fin 2) * 16 + 1 * q.val; omega

/-- An index is in grid point t's output block when each coordinate is in the block's range. -/
theorem mem_blk2 (t : Fin cfg2.N) (i : S200000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v42).slice (win2_2.rect t)).set ↔ _
  rw [View.set_slice_whole, Rect.mem_set_unit]
  exact Iff.rfl

/-- Row r of the output is in the block of grid point r / 10000. -/
theorem cover2 (i : S200000x16.Idx) : ∃ t : Fin cfg2.N, (cfg2.win 2).flush t = true ∧ i ∈ ((cfg2.win 2).blk t).view.set := by
  have hi0 : (i 0).val < 200000 := (i 0).isLt
  have hi1 : (i 1).val < 16 := (i 1).isLt
  have hN : grid2.N = 20 := N_2
  let t : Fin cfg2.N := ⟨(i 0).val / 10000, by show (i 0).val / 10000 < grid2.N; omega⟩
  obtain ⟨e20, e21, -, -, -, -⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; rw [e20]; show (i 0).val / 10000 * 10000 ≤ (i 0).val ∧ (i 0).val < (i 0).val / 10000 * 10000 + 10000; omega
  | ⟨1, _⟩ => show win2_2.index t (1 : Fin 2) * 16 ≤ (i 1).val ∧ (i 1).val < win2_2.index t (1 : Fin 2) * 16 + 16; omega

/-- After the third launch the second layer's transformed features are the whole matrix product. -/
theorem final2 (c : Dev nD) : (dat2 V c).arrAt 2 cfg2.N = mm (M := 200000) (K := 16) (N := 16) (V c main_v41) (V c main_arg5) :=
  (dat2 V c).arrAt_eq_of_cover 2 _ (fun t _ => flushed2 V c t) cover2

end Cert.KernelIdeal.Net

end
-- ==== Proof.Region3.lean ====
/-
  The fourth launch: the second layer's bias, forty blocks of five thousand rows, with no clamp.
-/
import proofs.«125375_j2783138808276_2_alg».proof.Proof.Gen.KernelIdeal.Frame
import proofs.«125375_j2783138808276_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.Net
open Idealize.ShloMosaic.Pipeline (Dat)

/-- The body's value at (p, q): the block's entry plus the bias at q. -/
theorem pay3_apply (x0 : Vec Ideal S5000x16 .f32) (x1 : Vec Ideal S16 .f32) (p : Fin 5000) (q : Fin 16) :
    k3_pay1 (F := Ideal) x0 x1 (ix2 p q) = x0 (ix2 p q) + x1 (ix1 q) := by
  unfold k3_pay1
  show (shapeCast S5000x16 x0 shapeCasts_S5000x16_S5000x16) (ix2 p q)
      + (broadcastTo S5000x16 (shapeCast S1x16 x1 shapeCasts_S16_S1x16) broadcasts_S1x16_S5000x16) (ix2 p q) = _
  rw [shapeCast_self, broadcastTo_1b_ab_apply, shapeCast_a_1a_apply]

/-- Where the blocks sit: at grid point t the input and output blocks are block-row t, and the bias block is the whole vector. -/
theorem idx_facts3 : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 1) = 0 :=
  (by decide +kernel : ∀ t : Fin grid3.N, _)

variable (V : (c : Dev nD) → (b : Ref sig .tc) → Buf (Elt Ideal) ((c : Thread nD τ).loc b))

/-- What grid point t writes back is block-row t of the sum. -/
theorem flushed3 (c : Dev nD) (t : Fin cfg3.N) :
    (dat3 V c).flushed 2 t = ((cfg3.win 2).blk t).view.read (Elt Ideal) (addRow (M := 200000) (N := 16) (V c main_v55) (V c main_arg6)) := by
  show (cfg3.win 2).cut (grid3.coords t) ((dat3 V c).after 2 t) = _
  rw [after3_2]
  unfold out3_2
  rw [View.canon_unit_zero zero2]
  simp only [View.ld_unit_zero (S := S5000x16) zero2, View.ld_unit_zero (S := S16) zero1]
  funext j
  obtain ⟨e20, e21, e00, e01, e10⟩ := idx_facts3 t
  show k3_pay1 (iblk3 V c 0 t) (iblk3 V c 1 t) j = addRow (V c main_v55) (V c main_arg6) (((cfg3.win 2).blk t).view.emb j)
  obtain ⟨p, q, rfl⟩ : ∃ (p : Fin 5000) (q : Fin 16), j = ix2 p q := ⟨j 0, j 1, eq_ix2 j⟩
  refine (pay3_apply _ _ p q).trans ?_
  unfold addRow
  refine congrArg₂ (· + ·) ?_ ?_
  · show V c main_v55 (((cfg3.win 0).blk t).view.emb (ix2 p q)) = _
    refine congrArg _ (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 16 + 1 * q.val = win3_2.index t (1 : Fin 2) * 16 + 1 * q.val; omega
  · show V c main_arg6 (((cfg3.win 1).blk t).view.emb (ix1 q)) = _
    refine congrArg _ (funext fun a => Fin.ext ?_)
    match a with
    | ⟨0, _⟩ => show win3_1.index t (0 : Fin 1) * 16 + 1 * q.val = win3_2.index t (1 : Fin 2) * 16 + 1 * q.val; omega

/-- An index is in grid point t's output block when each coordinate is in the block's range. -/
theorem mem_blk3 (t : Fin cfg3.N) (i : S200000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v56).slice (win3_2.rect t)).set ↔ _
  rw [View.set_slice_whole, Rect.mem_set_unit]
  exact Iff.rfl

/-- Row r of the output is in the block of grid point r / 5000. -/
theorem cover3 (i : S200000x16.Idx) : ∃ t : Fin cfg3.N, (cfg3.win 2).flush t = true ∧ i ∈ ((cfg3.win 2).blk t).view.set := by
  have hi0 : (i 0).val < 200000 := (i 0).isLt
  have hi1 : (i 1).val < 16 := (i 1).isLt
  have hN : grid3.N = 40 := N_3
  let t : Fin cfg3.N := ⟨(i 0).val / 5000, by show (i 0).val / 5000 < grid3.N; omega⟩
  obtain ⟨e20, e21, -, -, -⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e20]; show (i 0).val / 5000 * 5000 ≤ (i 0).val ∧ (i 0).val < (i 0).val / 5000 * 5000 + 5000; omega
  | ⟨1, _⟩ => show win3_2.index t (1 : Fin 2) * 16 ≤ (i 1).val ∧ (i 1).val < win3_2.index t (1 : Fin 2) * 16 + 16; omega

/-- After the fourth launch the second layer's output is the aggregated messages plus the bias. -/
theorem final3 (c : Dev nD) : (dat3 V c).arrAt 2 cfg3.N = addRow (M := 200000) (N := 16) (V c main_v55) (V c main_arg6) :=
  (dat3 V c).arrAt_eq_of_cover 2 _ (fun t _ => flushed3 V c t) cover3

end Cert.KernelIdeal.Net

end
-- ==== Proof.DenseLaws.lean ====
/-
  The dense stages as the kernels and the host spell them.

  On the extended reals a change of float format is the identity, a matrix unit's product into a zero
  accumulator and the host's general dot are both the plain sum of products, a bias row reaches every row of
  a matrix whether it is broadcast by the vector unit's two steps or the host's two steps, and a maximum with
  the zero constant is the clamp.  Each spelling is identified here, as a whole array, with the stage of the
  network it computes.
-/
import proofs.«125375_j2783138808276_2_alg».proof.Proof.Spec
import proofs.«125375_j2783138808276_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Net

open Idealize.ShloMosaic Idealize.ShloMosaic.ValueIdx

/-- The kernels' product: operands narrowed to bf16 (the identity here), accumulated from zero. -/
theorem matmul_trunc_zero_eq_mm {M K N : Nat} (d : DotDims ⟨2, ![M, K]⟩ ⟨2, ![K, N]⟩ ⟨2, ![M, N]⟩)
    (hd : d = DotDims.plain M K N) (l : FVec Ideal ⟨2, ![M, K]⟩ .f32) (r : FVec Ideal ⟨2, ![K, N]⟩ .f32)
    (h1 : FTy.bf16.bits < FTy.f32.bits) (h2 : FTy.bf16.bits < FTy.f32.bits) :
    matmul d none (truncf .bf16 l h1) (truncf .bf16 r h2) (constant (F := Ideal) ⟨2, ![M, N]⟩ .f32 0x00000000#32)
      = mm l r := by
  funext i
  obtain ⟨p, q, rfl⟩ : ∃ (p : Fin M) (q : Fin N), i = ix2 p q := ⟨i 0, i 1, eq_ix2 i⟩
  exact PlainDot.matmul_zero_apply d hd none (truncf .bf16 l h1) (truncf .bf16 r h2) p q

/-- The host's product. -/
theorem dotGeneral_eq_mm {M K N : Nat} (d : DotDims ⟨2, ![M, K]⟩ ⟨2, ![K, N]⟩ ⟨2, ![M, N]⟩)
    (hd : d = DotDims.plain M K N) (l : FVec Ideal ⟨2, ![M, K]⟩ .f32) (r : FVec Ideal ⟨2, ![K, N]⟩ .f32) :
    Host.dotGeneral d none l r = mm l r := by
  funext i
  obtain ⟨p, q, rfl⟩ : ∃ (p : Fin M) (q : Fin N), i = ix2 p q := ⟨i 0, i 1, eq_ix2 i⟩
  exact PlainDot.dotGeneral_apply d hd none .single l r p q

/-- The kernels' bias: the vector cast to one row, the row repeated down the matrix. -/
theorem addf_castRow_eq_addRow {M N : Nat} (a : FVec Ideal ⟨2, ![M, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) :
    addf a (broadcastTo ⟨2, ![M, N]⟩ (shapeCast ⟨2, ![1, N]⟩ b h1) h2) = addRow a b := by
  funext i
  obtain ⟨p, q, rfl⟩ : ∃ (p : Fin M) (q : Fin N), i = ix2 p q := ⟨i 0, i 1, eq_ix2 i⟩
  show a (ix2 p q) + broadcastTo ⟨2, ![M, N]⟩ (shapeCast ⟨2, ![1, N]⟩ b h1) h2 (ix2 p q) = a (ix2 p q) + b (ix1 q)
  rw [broadcastTo_1b_ab_apply, shapeCast_a_1a_apply]

/-- The host's bias: the vector laid along axis 1 of one row, the row laid along both axes of the matrix. -/
theorem addf_bcastRow_eq_addRow {M N : Nat} (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf a (broadcastInDim ⟨2, ![M, N]⟩ ![0, 1] h2 (broadcastInDim ⟨2, ![1, N]⟩ ![1] h1 b)) = addRow a b := by
  funext i
  obtain ⟨p, q, rfl⟩ : ∃ (p : Fin M) (q : Fin N), i = ix2 p q := ⟨i 0, i 1, eq_ix2 i⟩
  show a (ix2 p q) + broadcastInDim ⟨2, ![M, N]⟩ ![0, 1] h2 (broadcastInDim ⟨2, ![1, N]⟩ ![1] h1 b) (ix2 p q)
      = a (ix2 p q) + b (ix1 q)
  rw [broadcastInDim_apply ![0, 1] h2 _ (ix2 p q) (ix2 (0 : Fin 1) q) (fun ax => by
        match ax with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun ax => by
        match ax with
        | ⟨0, _⟩ =>
          show q.val = if N = 1 then 0 else q.val
          split
          · have := q.isLt; omega
          · rfl)]

/-- The kernels' clamp: the maximum with the zero scalar spread over the array. -/
theorem maximumf_splat_zero_eq_relu {s : Shape} (a : FVec Ideal s .f32) :
    maximumf a (broadcast s (Scalar.ofBits (F := Ideal) .f32 0x00000000#32)) = relu a := by
  funext i
  show max (a i) (Ideal.ofBits .f32 0x00000000#32) = max (a i) 0
  rw [Ideal.ofBits_zero_f32]

/-- The host's clamp: the maximum with the zero constant broadcast from a scalar. -/
theorem maximumf_bcast_zero_eq_relu {s : Shape} (a : FVec Ideal s .f32)
    (h : (⟨0, ![]⟩ : Shape).BroadcastsInDim s ![]) :
    maximumf a (broadcastInDim s ![] h (constant (F := Ideal) ⟨0, ![]⟩ .f32 0x00000000#32)) = relu a := by
  funext i
  show max (a i) (broadcastInDim s ![] h (constant (F := Ideal) ⟨0, ![]⟩ .f32 0x00000000#32) i) = max (a i) 0
  rw [broadcastInDim_apply ![] h _ i ix0 (fun ax => ax.elim0)]
  show max (a i) (Ideal.ofBits .f32 0x00000000#32) = max (a i) 0
  rw [Ideal.ofBits_zero_f32]

end Cert.Net

end
-- ==== Proof.Region4.lean ====
/-
  The last launch: the perceptron head on the pooled features, one grid point whose blocks are the whole arrays.

  The body clamps the pooled features at zero, multiplies by the first weight matrix, adds the first bias, clamps,
  multiplies by the second weight matrix and adds the second bias; every operand's block is its whole array, so
  the output array is the head of the arrays as the launch finds them.
-/
import proofs.«125375_j2783138808276_2_alg».proof.Proof.Gen.KernelIdeal.Frame
import proofs.«125375_j2783138808276_2_alg».proof.Proof.DenseLaws

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.Net
open Idealize.ShloMosaic.Pipeline (Dat)

/-- The body's value, as a whole array, is the perceptron head of its five loaded blocks. -/
theorem pay4_eq (x0 : Vec Ideal S4096x16 .f32) (x5 : Vec Ideal S16x100 .f32) (x8 : Vec Ideal S100 .f32)
    (x15 : Vec Ideal S100x27 .f32) (x18 : Vec Ideal S27 .f32) :
    k4_pay1 (F := Ideal) x0 x5 x8 x15 x18 = head x0 x5 x8 x15 x18 := by
  unfold k4_pay1 head
  dsimp only
  rw [shapeCast_self, maximumf_splat_zero_eq_relu,
    matmul_trunc_zero_eq_mm _ (PlainDot.eq_plain _ rfl rfl rfl rfl rfl rfl),
    addf_castRow_eq_addRow, maximumf_splat_zero_eq_relu,
    matmul_trunc_zero_eq_mm _ (PlainDot.eq_plain _ rfl rfl rfl rfl rfl rfl),
    addf_castRow_eq_addRow]

/-- Every block of the one grid point sits at the origin of its array. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0 :=
  (by decide +kernel : ∀ t : Fin grid4.N, _)

variable (V : (c : Dev nD) → (b : Ref sig .tc) → Buf (Elt Ideal) ((c : Thread nD τ).loc b))

/-- What the one grid point writes back is the head of the whole arrays, read through the whole-array block. -/
theorem flushed4 (c : Dev nD) (t : Fin cfg4.N) :
    (dat4 V c).flushed 5 t = ((cfg4.win 5).blk t).view.read (Elt Ideal)
      (head (G := 4096) (H := 16) (D := 100) (C := 27) (V c main_v59) (V c main_arg7) (V c main_arg8) (V c main_arg9) (V c main_arg10)) := by
  show (cfg4.win 5).cut (grid4.coords t) ((dat4 V c).after 5 t) = _
  rw [after4_5]
  unfold out4_5
  rw [View.canon_unit_zero zero2]
  simp only [View.ld_unit_zero (S := S4096x16) zero2, View.ld_unit_zero (S := S16x100) zero2, View.ld_unit_zero (S := S100) zero1,
    View.ld_unit_zero (S := S100x27) zero2, View.ld_unit_zero (S := S27) zero1]
  rw [pay4_eq]
  obtain ⟨e00, e01, e10, e11, e20, e30, e31, e40, e50, e51⟩ := idx_facts4 t
  have h0 : iblk4 V c 0 t = V c main_v59 := by
    funext y
    show V c main_v59 (((cfg4.win 0).blk t).view.emb y) = V c main_v59 y
    refine congrArg _ (funext fun a => Fin.ext ?_)
    match a with
    | ⟨0, _⟩ => show win4_0.index t (0 : Fin 2) * 4096 + 1 * (y 0).val = (y 0).val; omega
    | ⟨1, _⟩ => show win4_0.index t (1 : Fin 2) * 16 + 1 * (y 1).val = (y 1).val; omega
  have h1 : iblk4 V c 1 t = V c main_arg7 := by
    funext y
    show V c main_arg7 (((cfg4.win 1).blk t).view.emb y) = V c main_arg7 y
    refine congrArg _ (funext fun a => Fin.ext ?_)
    match a with
    | ⟨0, _⟩ => show win4_1.index t (0 : Fin 2) * 16 + 1 * (y 0).val = (y 0).val; omega
    | ⟨1, _⟩ => show win4_1.index t (1 : Fin 2) * 100 + 1 * (y 1).val = (y 1).val; omega
  have h2 : iblk4 V c 2 t = V c main_arg8 := by
    funext y
    show V c main_arg8 (((cfg4.win 2).blk t).view.emb y) = V c main_arg8 y
    refine congrArg _ (funext fun a => Fin.ext ?_)
    match a with
    | ⟨0, _⟩ => show win4_2.index t (0 : Fin 1) * 100 + 1 * (y 0).val = (y 0).val; omega
  have h3 : iblk4 V c 3 t = V c main_arg9 := by
    funext y
    show V c main_arg9 (((cfg4.win 3).blk t).view.emb y) = V c main_arg9 y
    refine congrArg _ (funext fun a => Fin.ext ?_)
    match a with
    | ⟨0, _⟩ => show win4_3.index t (0 : Fin 2) * 100 + 1 * (y 0).val = (y 0).val; omega
    | ⟨1, _⟩ => show win4_3.index t (1 : Fin 2) * 27 + 1 * (y 1).val = (y 1).val; omega
  have h4 : iblk4 V c 4 t = V c main_arg10 := by
    funext y
    show V c main_arg10 (((cfg4.win 4).blk t).view.emb y) = V c main_arg10 y
    refine congrArg _ (funext fun a => Fin.ext ?_)
    match a with
    | ⟨0, _⟩ => show win4_4.index t (0 : Fin 1) * 27 + 1 * (y 0).val = (y 0).val; omega
  rw [h0, h1, h2, h3, h4]
  funext j
  show head (V c main_v59) (V c main_arg7) (V c main_arg8) (V c main_arg9) (V c main_arg10) j
    = head (V c main_v59) (V c main_arg7) (V c main_arg8) (V c main_arg9) (V c main_arg10) (((cfg4.win 5).blk t).view.emb j)
  refine congrArg _ (funext fun a => Fin.ext ?_)
  match a with
  | ⟨0, _⟩ => show (j 0).val = win4_5.index t (0 : Fin 2) * 4096 + 1 * (j 0).val; omega
  | ⟨1, _⟩ => show (j 1).val = win4_5.index t (1 : Fin 2) * 27 + 1 * (j 1).val; omega

/-- An index is in the output block when each coordinate is in the block's range. -/
theorem mem_blk4 (t : Fin cfg4.N) (i : S4096x27.Idx) :
    i ∈ ((cfg4.win 5).blk t).view.set ↔ ∀ a : Fin 2, win4_5.index t a * S4096x27.size a ≤ (i a).val ∧ (i a).val < win4_5.index t a * S4096x27.size a + S4096x27.size a := by
  show i ∈ ((View.whole main_v60).slice (win4_5.rect t)).set ↔ _
  rw [View.set_slice_whole, Rect.mem_set_unit]
  exact Iff.rfl

/-- The one block is the whole output. -/
theorem cover4 (i : S4096x27.Idx) : ∃ t : Fin cfg4.N, (cfg4.win 5).flush t = true ∧ i ∈ ((cfg4.win 5).blk t).view.set := by
  have hi0 : (i 0).val < 4096 := (i 0).isLt
  have hi1 : (i 1).val < 27 := (i 1).isLt
  obtain ⟨-, -, -, -, -, -, -, -, e50, e51⟩ := idx_facts4 t4_0
  refine ⟨t4_0, flush4_5 t4_0, ?_⟩
  rw [mem_blk4]
  intro a
  match a with
  | ⟨0, _⟩ => show win4_5.index t4_0 (0 : Fin 2) * 4096 ≤ (i 0).val ∧ (i 0).val < win4_5.index t4_0 (0 : Fin 2) * 4096 + 4096; omega
  | ⟨1, _⟩ => show win4_5.index t4_0 (1 : Fin 2) * 27 ≤ (i 1).val ∧ (i 1).val < win4_5.index t4_0 (1 : Fin 2) * 27 + 27; omega

/-- After the last launch the result is the perceptron head of the pooled features. -/
theorem final4 (c : Dev nD) : (dat4 V c).arrAt 5 cfg4.N
    = head (G := 4096) (H := 16) (D := 100) (C := 27) (V c main_v59) (V c main_arg7) (V c main_arg8) (V c main_arg9) (V c main_arg10) :=
  (dat4 V c).arrAt_eq_of_cover 5 _ (fun t _ => flushed4 V c t) cover4

end Cert.KernelIdeal.Net

end
-- ==== Proof.GraphOps.lean ====
/-
  The network's sparse stages: message passing along the edges and pooling over the graphs.

  A convolution layer gathers each edge's source row of the transformed features, scales it by the edge's
  weight, and adds it into the row of the edge's target node; the read-out adds every node's row into the row
  of the graph the node belongs to.  Both programs do this with the same host operations, so each stage is
  named here once, as those operations applied to the edge lists, the edge weights and the feature matrix.
-/
import proofs.«125375_j2783138808276_2_alg».proof.Proof.Gen.ReferenceIdeal
import proofs.«125375_j2783138808276_2_alg».proof.Proof.Spec

noncomputable section

namespace Cert.ReferenceIdeal.Graph

open Cert.ReferenceIdeal Cert.ReferenceIdeal.Gen Idealize.ShloMosaic Cert.Net

variable {F : FTy → Type} [FloatOps F]

/-- One round of message passing over the edge list with self-loops: row `src e` of `h` (a negative index
    counted from the end, as the gather's index arithmetic has it), times `w e`, added into row `dst e`
    of a zero matrix. -/
def aggregate (src dst : IVec S6600000 32) (w : FVec F S6600000 .f32) (h : FVec F S200000x16 .f32) : FVec F S200000x16 .f32 :=
  Host.scatterAdd scatter_S200000x16_S6600000x1_S6600000x16_1_0_0_1
    (broadcastInDim S200000x16 ![] bcast_S_S200000x16 (constant S_ .f32 0x00000000#32))
    (broadcastInDim S6600000x1 ![0] bcast_S6600000_S6600000x1_0 dst)
    (mulf
      (Host.gather gather_S200000x16_S6600000x1_S6600000x16_1_0_n_n_0_1_116 h
        (broadcastInDim S6600000x1 ![0] bcast_S6600000_S6600000x1_0
          (select (cmpi .slt src (broadcastInDim S6600000 ![] bcast_S_S6600000 (constantI S_ 32 0#32)))
            (addi src (broadcastInDim S6600000 ![] bcast_S_S6600000 (constantI S_ 32 200000#32))) src)))
      (broadcastInDim S6600000x16 ![0, 1] bcast_S6600000x1_S6600000x16_0_1
        (broadcastInDim S6600000x1 ![0] bcast_S6600000_S6600000x1_0 w)))

/-- The read-out: every node's row added into the row of its graph, from a zero matrix. -/
def pool (graph : IVec S200000 32) (h : FVec F S200000x16 .f32) : FVec F S4096x16 .f32 :=
  Host.scatterAdd scatter_S4096x16_S200000x1_S200000x16_1_0_0_1
    (broadcastInDim S4096x16 ![] bcast_S_S4096x16 (constant S_ .f32 0x00000000#32))
    (broadcastInDim S200000x1 ![0] bcast_S200000_S200000x1_0 graph) h

/-- The whole network on the extended reals, given the edge lists with self-loops and the edge weights: two
    convolution layers (transform, aggregate, bias; a clamp after the first), the read-out, the perceptron head. -/
def layers (src dst : IVec S6600000 32) (w : FVec Ideal S6600000 .f32)
    (x : FVec Ideal S200000x128 .f32) (graph : IVec S200000 32)
    (w1 : FVec Ideal S128x16 .f32) (b1 : FVec Ideal S16 .f32) (w2 : FVec Ideal S16x16 .f32) (b2 : FVec Ideal S16 .f32)
    (wl1 : FVec Ideal S16x100 .f32) (bl1 : FVec Ideal S100 .f32) (wl2 : FVec Ideal S100x27 .f32) (bl2 : FVec Ideal S27 .f32) :
    FVec Ideal S4096x27 .f32 :=
  head (pool (F := Ideal) graph (addRow (aggregate (F := Ideal) src dst w (mm (relu (addRow (aggregate (F := Ideal) src dst w (mm x w1)) b1)) w2)) b2))
    wl1 bl1 wl2 bl2

end Cert.ReferenceIdeal.Graph

end
-- ==== Proof.KernelStages.lean ====
/-
  The kernel's program is the network.

  Followed through its nine boundaries, the fold of the kernel's host stretches and launches gives: the edge lists
  with self-loops and the edge weights (before the first launch); the first transform (first launch); the first
  round of message passing (a host stretch); bias and clamp (second launch); the second transform (third launch);
  the second round (a host stretch); its bias (fourth launch); the read-out (a host stretch); the perceptron head
  (last launch).  The host stretches are, operation for operation, those of the reference.
-/
import proofs.«125375_j2783138808276_2_alg».proof.Proof.Kept
import proofs.«125375_j2783138808276_2_alg».proof.Proof.Region0
import proofs.«125375_j2783138808276_2_alg».proof.Proof.Region1
import proofs.«125375_j2783138808276_2_alg».proof.Proof.Region2
import proofs.«125375_j2783138808276_2_alg».proof.Proof.Region3
import proofs.«125375_j2783138808276_2_alg».proof.Proof.Region4
import proofs.«125375_j2783138808276_2_alg».proof.Proof.GraphOps
import proofs.«125375_j2783138808276_2_alg».proof.Proof.Gen.ReferenceIdeal.Read

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo
open Cert.Net Cert.ReferenceIdeal.Graph

/-! ## The host stretches, from any contents -/

/-- The source list with self-loops: the reference's, of the edge array. -/
theorem edges_src (W : Valuation τ sig (Elt Ideal)) : StableHlo.after hostOps0 W (Proc.devRef .tc main_v5)
    = Cert.ReferenceIdeal.Read.val_main_v5 (F := Ideal) (W (Proc.devRef .tc main_arg1)) := by
  after_results_simp
  rfl

/-- The target list with self-loops. -/
theorem edges_dst (W : Valuation τ sig (Elt Ideal)) : StableHlo.after hostOps0 W (Proc.devRef .tc main_v6)
    = Cert.ReferenceIdeal.Read.val_main_v6 (F := Ideal) (W (Proc.devRef .tc main_arg1)) := by
  after_results_simp
  rfl

/-- The edge weights: the product of the inverse square roots of the two end nodes' degrees. -/
theorem edges_weight (W : Valuation τ sig (Elt Ideal)) : StableHlo.after hostOps0 W (Proc.devRef .tc main_v26)
    = Cert.ReferenceIdeal.Read.val_main_v26 (F := Ideal) (W (Proc.devRef .tc main_arg1)) := by
  after_results_simp
  rfl

/-- The first round of message passing. -/
theorem round1 (W : Valuation τ sig (Elt Ideal)) : StableHlo.after hostOps1 W (Proc.devRef .tc main_v40)
    = aggregate (F := Ideal) (W (Proc.devRef .tc main_v5)) (W (Proc.devRef .tc main_v6)) (W (Proc.devRef .tc main_v26)) (W (Proc.devRef .tc main_v27)) := by
  after_results_simp
  rfl

/-- The second round of message passing. -/
theorem round2 (W : Valuation τ sig (Elt Ideal)) : StableHlo.after hostOps3 W (Proc.devRef .tc main_v55)
    = aggregate (F := Ideal) (W (Proc.devRef .tc main_v5)) (W (Proc.devRef .tc main_v6)) (W (Proc.devRef .tc main_v26)) (W (Proc.devRef .tc main_v42)) := by
  after_results_simp
  rfl

/-- The read-out. -/
theorem readout (W : Valuation τ sig (Elt Ideal)) : StableHlo.after hostOps4 W (Proc.devRef .tc main_v59)
    = pool (F := Ideal) (W (Proc.devRef .tc main_arg2)) (W (Proc.devRef .tc main_v56)) := by
  after_results_simp
  rfl

/-! ## The fold, boundary by boundary -/

variable (m : (ℓ : Loc nD τ sig) → Buf (Elt Ideal) ℓ) (ρ : Dev nD → PrngReg) (c : Dev nD)

/-- Before the first launch: the source list. -/
theorem src_at1 : W1 m ρ c (Proc.devRef .tc main_v5) = (Cert.ReferenceIdeal.Read.val_main_v5 (F := Ideal) (m ((c : Thread nD τ).loc main_arg1))) := edges_src (W0 m ρ c)
/-- Before the first launch: the target list. -/
theorem dst_at1 : W1 m ρ c (Proc.devRef .tc main_v6) = (Cert.ReferenceIdeal.Read.val_main_v6 (F := Ideal) (m ((c : Thread nD τ).loc main_arg1))) := edges_dst (W0 m ρ c)
/-- Before the first launch: the edge weights. -/
theorem weight_at1 : W1 m ρ c (Proc.devRef .tc main_v26) = (Cert.ReferenceIdeal.Read.val_main_v26 (F := Ideal) (m ((c : Thread nD τ).loc main_arg1))) := edges_weight (W0 m ρ c)

/-- After the first launch: the first transform. -/
theorem stage_transform1 : W2 m ρ c (Proc.devRef .tc main_v27) = mm (m ((c : Thread nD τ).loc main_arg0)) (m ((c : Thread nD τ).loc main_arg3)) := by
  refine (W2_arr m ρ c 2).trans ((final0 (V1 m ρ) c).trans ?_)
  show mm (W1 m ρ c (Proc.devRef .tc main_arg0)) (W1 m ρ c (Proc.devRef .tc main_arg3)) = _
  rw [arg0_at1, arg3_at1]

/-- After the stretch that follows: the first round of message passing. -/
theorem stage_round1 : W3 m ρ c (Proc.devRef .tc main_v40) = (aggregate (F := Ideal) (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (mm (m ((c : Thread nD τ).loc main_arg0)) (m ((c : Thread nD τ).loc main_arg3)))) := by
  refine (round1 (W2 m ρ c)).trans ?_
  rw [stage_transform1, v5_at2, v6_at2, v26_at2, src_at1, dst_at1, weight_at1]

/-- After the second launch: the first layer's activations. -/
theorem stage_layer1 : W4 m ρ c (Proc.devRef .tc main_v41) = (relu (addRow (aggregate (F := Ideal) (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (mm (m ((c : Thread nD τ).loc main_arg0)) (m ((c : Thread nD τ).loc main_arg3)))) (m ((c : Thread nD τ).loc main_arg4)))) := by
  refine (W4_arr m ρ c 2).trans ((final1 (V3 m ρ) c).trans ?_)
  show relu (addRow (W3 m ρ c (Proc.devRef .tc main_v40)) (W3 m ρ c (Proc.devRef .tc main_arg4))) = _
  rw [stage_round1, arg4_at3]

/-- After the third launch: the second transform. -/
theorem stage_transform2 : W5 m ρ c (Proc.devRef .tc main_v42) = (mm (relu (addRow (aggregate (F := Ideal) (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (mm (m ((c : Thread nD τ).loc main_arg0)) (m ((c : Thread nD τ).loc main_arg3)))) (m ((c : Thread nD τ).loc main_arg4)))) (m ((c : Thread nD τ).loc main_arg5))) := by
  refine (W5_arr m ρ c 2).trans ((final2 (V4 m ρ) c).trans ?_)
  show mm (W4 m ρ c (Proc.devRef .tc main_v41)) (W4 m ρ c (Proc.devRef .tc main_arg5)) = _
  rw [stage_layer1, arg5_at4]

/-- After the stretch that follows: the second round of message passing, over the same edges. -/
theorem stage_round2 : W6 m ρ c (Proc.devRef .tc main_v55) = (aggregate (F := Ideal) (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (mm (relu (addRow (aggregate (F := Ideal) (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (mm (m ((c : Thread nD τ).loc main_arg0)) (m ((c : Thread nD τ).loc main_arg3)))) (m ((c : Thread nD τ).loc main_arg4)))) (m ((c : Thread nD τ).loc main_arg5)))) := by
  refine (round2 (W5 m ρ c)).trans ?_
  rw [stage_transform2, v5_at5, v6_at5, v26_at5, src_at1, dst_at1, weight_at1]

/-- After the fourth launch: the second layer's output. -/
theorem stage_layer2 : W7 m ρ c (Proc.devRef .tc main_v56) = (addRow (aggregate (F := Ideal) (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (mm (relu (addRow (aggregate (F := Ideal) (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (mm (m ((c : Thread nD τ).loc main_arg0)) (m ((c : Thread nD τ).loc main_arg3)))) (m ((c : Thread nD τ).loc main_arg4)))) (m ((c : Thread nD τ).loc main_arg5)))) (m ((c : Thread nD τ).loc main_arg6))) := by
  refine (W7_arr m ρ c 2).trans ((final3 (V6 m ρ) c).trans ?_)
  show addRow (W6 m ρ c (Proc.devRef .tc main_v55)) (W6 m ρ c (Proc.devRef .tc main_arg6)) = _
  rw [stage_round2, arg6_at6]

/-- After the last stretch: the pooled features. -/
theorem stage_pool : W8 m ρ c (Proc.devRef .tc main_v59) = (pool (F := Ideal) (m ((c : Thread nD τ).loc main_arg2)) (addRow (aggregate (F := Ideal) (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (mm (relu (addRow (aggregate (F := Ideal) (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (mm (m ((c : Thread nD τ).loc main_arg0)) (m ((c : Thread nD τ).loc main_arg3)))) (m ((c : Thread nD τ).loc main_arg4)))) (m ((c : Thread nD τ).loc main_arg5)))) (m ((c : Thread nD τ).loc main_arg6)))) := by
  refine (readout (W7 m ρ c)).trans ?_
  rw [stage_layer2, arg2_at7]

/-- After the last launch the result buffer holds the network of the argument arrays. -/
theorem fold_eq : W9 m ρ c (Proc.devRef .tc main_v60)
    = layers (Cert.ReferenceIdeal.Read.val_main_v5 (F := Ideal) (m ((c : Thread nD τ).loc main_arg1))) (Cert.ReferenceIdeal.Read.val_main_v6 (F := Ideal) (m ((c : Thread nD τ).loc main_arg1))) (Cert.ReferenceIdeal.Read.val_main_v26 (F := Ideal) (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W9_arr m ρ c 5).trans ((final4 (V8 m ρ) c).trans ?_)
  show head (W8 m ρ c (Proc.devRef .tc main_v59)) (W8 m ρ c (Proc.devRef .tc main_arg7)) (W8 m ρ c (Proc.devRef .tc main_arg8))
    (W8 m ρ c (Proc.devRef .tc main_arg9)) (W8 m ρ c (Proc.devRef .tc main_arg10)) = _
  rw [stage_pool, arg7_at8, arg8_at8, arg9_at8, arg10_at8]
  rfl

end Cert.KernelIdeal.Net

end
-- ==== Proof.RefStages.lean ====
/-
  The reference program is the network.

  Read one operation at a time, the reference's result is: the feature transform, one round of message passing,
  the bias and the clamp; the second transform, the second round, its bias; the read-out; the perceptron head.
  Its index arithmetic for the second round repeats the first's, operation for operation, so both rounds are the
  same function of the edge lists and weights.
-/
import proofs.«125375_j2783138808276_2_alg».proof.Proof.Gen.ReferenceIdeal.Read
import proofs.«125375_j2783138808276_2_alg».proof.Proof.DenseLaws
import proofs.«125375_j2783138808276_2_alg».proof.Proof.GraphOps

noncomputable section

namespace Cert.ReferenceIdeal.Stages

open Cert.ReferenceIdeal Cert.ReferenceIdeal.Gen Cert.ReferenceIdeal.Read Cert.ReferenceIdeal.Graph Cert.Net
open Idealize.ShloMosaic

variable (x0 : (⟨S200000x128, .f32⟩ : BufTy).Contents (Elt Ideal)) (x1 : (⟨S2x6400000, .i32⟩ : BufTy).Contents (Elt Ideal))
  (x2 : (⟨S200000, .i32⟩ : BufTy).Contents (Elt Ideal)) (x3 : (⟨S128x16, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S16x100, .f32⟩ : BufTy).Contents (Elt Ideal))
  (x8 : (⟨S100, .f32⟩ : BufTy).Contents (Elt Ideal)) (x9 : (⟨S100x27, .f32⟩ : BufTy).Contents (Elt Ideal))
  (x10 : (⟨S27, .f32⟩ : BufTy).Contents (Elt Ideal))

/-- The first layer's transform. -/
theorem transform1 : val_main_v27 (F := Ideal) x0 x3 = mm x0 x3 := by
  unfold val_main_v27
  exact dotGeneral_eq_mm _ (PlainDot.eq_plain _ rfl rfl rfl rfl rfl rfl) x0 x3

/-- The first round of message passing. -/
theorem aggregate1 : val_main_v40 (F := Ideal) x0 x1 x3
    = aggregate (val_main_v5 x1) (val_main_v6 x1) (val_main_v26 x1) (mm x0 x3) := by
  rw [← transform1]
  rfl

/-- The first layer's activations. -/
theorem layer1 : val_main_v44 (F := Ideal) x0 x1 x3 x4
    = relu (addRow (aggregate (val_main_v5 x1) (val_main_v6 x1) (val_main_v26 x1) (mm x0 x3)) x4) := by
  unfold val_main_v44 val_main_v43 val_main_v42 val_main_v41 val_main_call0_v0 val_main_call0_cst
  rw [aggregate1, addf_bcastRow_eq_addRow, maximumf_bcast_zero_eq_relu]

/-- The second layer's transform. -/
theorem transform2 : val_main_v45 (F := Ideal) x0 x1 x3 x4 x5
    = mm (relu (addRow (aggregate (val_main_v5 x1) (val_main_v6 x1) (val_main_v26 x1) (mm x0 x3)) x4)) x5 := by
  unfold val_main_v45
  rw [layer1]
  exact dotGeneral_eq_mm _ (PlainDot.eq_plain _ rfl rfl rfl rfl rfl rfl) _ x5

/-- The second round of message passing: the same function of the edges as the first. -/
theorem aggregate2 : val_main_v58 (F := Ideal) x0 x1 x3 x4 x5
    = aggregate (val_main_v5 x1) (val_main_v6 x1) (val_main_v26 x1)
        (mm (relu (addRow (aggregate (val_main_v5 x1) (val_main_v6 x1) (val_main_v26 x1) (mm x0 x3)) x4)) x5) := by
  rw [← transform2]
  rfl

/-- The second layer's output. -/
theorem layer2 : val_main_v61 (F := Ideal) x0 x1 x3 x4 x5 x6
    = addRow (aggregate (val_main_v5 x1) (val_main_v6 x1) (val_main_v26 x1)
        (mm (relu (addRow (aggregate (val_main_v5 x1) (val_main_v6 x1) (val_main_v26 x1) (mm x0 x3)) x4)) x5)) x6 := by
  unfold val_main_v61 val_main_v60 val_main_v59
  rw [aggregate2, addf_bcastRow_eq_addRow]

/-- The read-out. -/
theorem pooled : val_main_v64 (F := Ideal) x0 x1 x2 x3 x4 x5 x6
    = pool (F := Ideal) x2 (addRow (aggregate (val_main_v5 x1) (val_main_v6 x1) (val_main_v26 x1)
        (mm (relu (addRow (aggregate (val_main_v5 x1) (val_main_v6 x1) (val_main_v26 x1) (mm x0 x3)) x4)) x5)) x6) := by
  rw [← layer2]
  rfl

/-- The reference's result is the network of the argument arrays. -/
theorem result : val_main_v74 (F := Ideal) x0 x1 x2 x3 x4 x5 x6 x7 x8 x9 x10
    = layers (val_main_v5 x1) (val_main_v6 x1) (val_main_v26 x1) x0 x2 x3 x4 x5 x6 x7 x8 x9 x10 := by
  unfold val_main_v74 val_main_v73 val_main_v72 val_main_v71 val_main_v70 val_main_call2_v0 val_main_call2_cst
    val_main_v69 val_main_v68 val_main_v67 val_main_v66 val_main_v65 val_main_call1_v0 val_main_call1_cst
  rw [pooled, maximumf_bcast_zero_eq_relu, dotGeneral_eq_mm _ (PlainDot.eq_plain _ rfl rfl rfl rfl rfl rfl),
    addf_bcastRow_eq_addRow, maximumf_bcast_zero_eq_relu,
    dotGeneral_eq_mm _ (PlainDot.eq_plain _ rfl rfl rfl rfl rfl rfl), addf_bcastRow_eq_addRow]
  rfl

end Cert.ReferenceIdeal.Stages

end
-- ==== Proof.lean ====
/-
  A two-layer graph convolution with a pooled perceptron head, as five kernel launches among host operations,
  against its plain reference: equal results on the extended reals.

  Both programs compute the same network of their argument arrays.  The edge list is extended by a self-loop at
  every node; a node's degree is the number of edges into it; an edge's weight is the product of the inverse square
  roots of its two end nodes' degrees.  A convolution layer multiplies the node features by a weight matrix, sends
  along every edge the source node's row times the edge's weight, adds what arrives at each node, and adds a bias;
  the first layer is followed by a clamp at zero.  The read-out adds the rows of each graph's nodes, and the head is
  clamp, product, bias, clamp, product, bias.

  The kernel runs the two feature transforms, the two bias steps and the head as launches: the transforms in blocks
  of ten thousand rows, the bias steps in blocks of five thousand rows, the head in one block.  A block of rows of
  a matrix product depends on the same block of rows of the left operand only, and the bias and clamp act entry by
  entry, so every launch leaves its whole-array function in its output array.  The sums of a matrix product are the
  same finite sums in both programs, a change of float format is the identity, and the gathers, scatters and index
  arithmetic between the launches are the reference's own operations: no law of the extended reals beyond that is
  used, and the finiteness of the inputs is never opened.

  The kernel's word-level frame and the idealized kernel's frame are the generated ones; the reference's frame is its
  generated run with the result dropped; the ideal pass rewrote nothing.
-/
import proofs.«125375_j2783138808276_2_alg».proof.Defs
import proofs.«125375_j2783138808276_2_alg».proof.Proof.Gen.Kernel
import proofs.«125375_j2783138808276_2_alg».proof.Proof.Gen.Kernel.Skeleton
import proofs.«125375_j2783138808276_2_alg».proof.Proof.Gen.Kernel.Launch
import proofs.«125375_j2783138808276_2_alg».proof.Proof.Gen.Kernel.Points
import proofs.«125375_j2783138808276_2_alg».proof.Proof.Gen.Kernel.Frame
import proofs.«125375_j2783138808276_2_alg».proof.Proof.Gen.KernelIdeal
import proofs.«125375_j2783138808276_2_alg».proof.Proof.Gen.KernelIdeal.Skeleton
import proofs.«125375_j2783138808276_2_alg».proof.Proof.Gen.KernelIdeal.Launch
import proofs.«125375_j2783138808276_2_alg».proof.Proof.Gen.KernelIdeal.Points
import proofs.«125375_j2783138808276_2_alg».proof.Proof.Gen.KernelIdeal.Frame
import proofs.«125375_j2783138808276_2_alg».proof.Proof.Gen.ReferenceIdeal
import proofs.«125375_j2783138808276_2_alg».proof.Proof.Gen.Pre_finite_inputs
import proofs.«125375_j2783138808276_2_alg».proof.Proof.Gen.ReferenceIdeal.Run
import proofs.«125375_j2783138808276_2_alg».proof.Proof.Gen.ReferenceIdeal.Read
import proofs.«125375_j2783138808276_2_alg».proof.Proof.KernelRun
import proofs.«125375_j2783138808276_2_alg».proof.Proof.KernelStages
import proofs.«125375_j2783138808276_2_alg».proof.Proof.RefStages
import Idealize.ShloMosaic.Adequacy
import Idealize.ShloMosaic.Init

noncomputable section

namespace Cert.Proof

open Idealize.ShloMosaic Idealize.ShloMosaic.TcCoe Idealize.SL.Sem

/-- The word-level kernel's frame: the generated one. -/
theorem frame_kernel : Cert.frame_Kernel := fun m ρ _ => Cert.Kernel.Gen.frame m ρ

/-- The idealized kernel's frame: the generated one. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read on the extended reals. -/
theorem preserves : Cert.preserves_Kernel_KernelIdeal := trivial

/-- Both programs end with the network of the argument arrays in their result. -/
theorem algebraic : Cert.algebraic_KernelIdeal_ReferenceIdeal := by
  intro m ρ m' ρ' _ hagree
  refine ⟨fun c => Cert.ReferenceIdeal.Graph.layers
      (Cert.ReferenceIdeal.Read.val_main_v5 (F := Ideal) (m ((c.tc : Thread Cert.KernelIdeal.nD Cert.KernelIdeal.τ).loc Cert.KernelIdeal.main_arg1)))
      (Cert.ReferenceIdeal.Read.val_main_v6 (F := Ideal) (m ((c.tc : Thread Cert.KernelIdeal.nD Cert.KernelIdeal.τ).loc Cert.KernelIdeal.main_arg1)))
      (Cert.ReferenceIdeal.Read.val_main_v26 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Net.fold_eq m ρ c), (h c).2⟩)
      (Cert.KernelIdeal.Net.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v74_eq, Cert.ReferenceIdeal.Stages.result, a0, a1, a2, a3, a4, a5, a6, a7, a8, a9, a10]

/-- The five claims together, under the generated witnesses of the programs' side conditions. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
